-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x512 : Shape := ⟨3, ![2, 256, 512]⟩
abbrev S2x512x512 : Shape := ⟨3, ![2, 512, 512]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64 .f32) (main_arg8 : FVec F S64x32 .f32) (main_arg9 : FVec F S32 .f32) (main_arg10 : FVec F S32x1 .f32) (main_arg11 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_arg11 main_v48 main_v49 main_v50

def fn_part1 {F : FTy → Type} [FloatOps F] (main_arg4 : FVec F S256x128 .f32) (main_arg5 : FVec F S128 .f32) (main_arg6 : FVec F S128x64 .f32) (main_arg7 : FVec F S64 .f32) (main_arg8 : FVec F S64x32 .f32) (main_arg9 : FVec F S32 .f32) (main_arg10 : FVec F S32x1 .f32) (main_arg11 : FVec F S1 .f32) (main_v13 : IVec S_ 1) (main_v16 : IVec S2x512x512 1) : IVec S_ 1 :=
  let main_c_5 : IVec S_ 1 := constantI S_ 1 1#1
  let main_v17 : IVec S_ 1 := (fun x v => Host.reduce IntOp.andi x v reducesTo_S2x512x512_S_d0_1_2 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x256x512 .f32) (main_arg1 : FVec F S2x512x512 .f32) (main_arg2 : FVec F S2x512x512 .f32) (main_arg3 : FVec F S2x512x512 .f32) (main_arg4 : FVec F S256x128 .f32) (main_arg5 : FVec F S128 .f32) (main_arg6 : FVec F S128x64 .f32) (main_arg7 : FVec F S64 .f32) (main_arg8 : FVec F S64x32 .f32) (main_arg9 : FVec F S32 .f32) (main_arg10 : FVec F S32x1 .f32) (main_arg11 : FVec F S1 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S2x512x512 .f32 := Host.absf main_arg3
  let main_cst_4 : FVec F S_ .f32 := constant S_ .f32 0x7F800000#32
  let main_v15 : FVec F S2x512x512 .f32 := broadcastInDim S2x512x512 ![] bcast_S_S2x512x512 main_cst_4
  let main_v16 : IVec S2x512x512 1 := cmpf .olt main_v14 main_v15
  fn_part1 (F := F) main_arg4 main_arg5 main_arg6 main_arg7 main_arg8 main_arg9 main_arg10 main_arg11 main_v13 main_v16
-- ==== Kernel.lean ====
abbrev S2x256x512 : Shape := ⟨3, ![2, 256, 512]⟩
abbrev S2x512x512 : Shape := ⟨3, ![2, 512, 512]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x512x256 : Shape := ⟨3, ![2, 512, 256]⟩
abbrev S1x128x256 : Shape := ⟨3, ![1, 128, 256]⟩
abbrev S1x128x128 : Shape := ⟨3, ![1, 128, 128]⟩
abbrev S128x256 : Shape := ⟨2, ![128, 256]⟩
abbrev S128x1x256 : Shape := ⟨3, ![128, 1, 256]⟩
abbrev S128x128x256 : Shape := ⟨3, ![128, 128, 256]⟩
abbrev S16384x256 : Shape := ⟨2, ![16384, 256]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S16384x1 : Shape := ⟨2, ![16384, 1]⟩
abbrev S1x1 : Shape := ⟨2, ![1, 1]⟩
abbrev S128x128 : Shape := ⟨2, ![128, 128]⟩
abbrev S_ : Shape := ⟨0, ![]⟩

abbrev nBuf : Space → Nat
  | .hbm => 31
  | .vmem => 14
  | .smem => 0
  | _ => 0

abbrev bufTy : (tb : Table) → Fin (tcTables nBuf tb) → BufTy
  | .hbm, ⟨0, _⟩ => ⟨S2x256x512, .f32⟩
  | .hbm, ⟨1, _⟩ => ⟨S2x512x512, .f32⟩
  | .hbm, ⟨2, _⟩ => ⟨S2x512x512, .f32⟩
  | .hbm, ⟨3, _⟩ => ⟨S2x512x512, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S2x512x256, .f32⟩
  | .hbm, ⟨13, _⟩ => ⟨S2x512x512, .f32⟩
  | .hbm, ⟨14, _⟩ => ⟨S_, .f32⟩
  | .hbm, ⟨15, _⟩ => ⟨S2x512x512, .f32⟩
  | .hbm, ⟨16, _⟩ => ⟨S2x512x512, .f32⟩
  | .hbm, ⟨17, _⟩ => ⟨S2x512x512, .f32⟩
  | .hbm, ⟨18, _⟩ => ⟨S2x512x512, .f32⟩
  | .hbm, ⟨19, _⟩ => ⟨S2x512x512, .f32⟩
  | .hbm, ⟨20, _⟩ => ⟨S2x512x512, .f32⟩
  | .hbm, ⟨21, _⟩ => ⟨S2x512x512, .f32⟩
  | .hbm, ⟨22, _⟩ => ⟨S2x512x512, .f32⟩
  | .hbm, ⟨23, _⟩ => ⟨S2x512x512, .f32⟩
  | .hbm, ⟨24, _⟩ => ⟨S2x512x512, .f32⟩
  | .hbm, ⟨25, _⟩ => ⟨S2x512x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S256x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x32, .f32⟩
  | .local _ .vmem, ⟨9, _⟩ => ⟨S32, .f32⟩
  | .local _ .vmem, ⟨10, _⟩ => ⟨S32x1, .f32⟩
  | .local _ .vmem, ⟨11, _⟩ => ⟨S1, .f32⟩
  | .local _ .vmem, ⟨12, _⟩ => ⟨S1x128x128, .f32⟩
  | .local _ .vmem, ⟨13, _⟩ => ⟨S1x128x128, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  transposes_S2x256x512_S2x512x256_0_2_1 : S2x256x512.Transposes [0, 2, 1] S2x512x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  shapeCasts_S128x256_S128x1x256 : S128x256.ShapeCasts S128x1x256
  shapeCasts_S128x256_S1x128x256 : S128x256.ShapeCasts S1x128x256
  broadcasts_S128x1x256_S128x128x256 : S128x1x256.Broadcasts S128x128x256
  broadcasts_S1x128x256_S128x128x256 : S1x128x256.Broadcasts S128x128x256
  shapeCasts_S128x128x256_S16384x256 : S128x128x256.ShapeCasts S16384x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S16384x32 : S1x32.Broadcasts S16384x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S16384x1 : S1x1.Broadcasts S16384x1
  shapeCasts_S16384x1_S128x128 : S16384x1.ShapeCasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  dot_S16384x256_S256x128_S16384x128_1_0_0_1_n_n_wf : DotDims.WF S16384x256 S256x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S2x512x256.size a
  hwx0_0 : ∀ i : grid0.Coords, EltTy.bits .f32 = 32 ∨ (Rect.block (s := S2x512x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S2x512x256.size a
  hwx0_1 : ∀ i : grid0.Coords, EltTy.bits .f32 = 32 ∨ (Rect.block (s := S2x512x256) S1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x128.size a ≤ S2x512x512.size a
  hwx0_10 : ∀ i : grid0.Coords, EltTy.bits .f32 = 32 ∨ (Rect.block (s := S2x512x512) S1x128x128.size (cc0_transform_10 i) (hinb0_10 i)).WholeWords (EltTy.packing .f32)

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

abbrev win0_0 : Pipeline.Window sig grid0 :=
  Pipeline.Window.ofSpec (Memref.whole main_v0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x128x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S2x512x512 : Shape := ⟨3, ![2, 512, 512]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x512x256 : Shape := ⟨3, ![2, 512, 256]⟩
abbrev S2x512x1x256 : Shape := ⟨4, ![2, 512, 1, 256]⟩
abbrev S2x1x512x256 : Shape := ⟨4, ![2, 1, 512, 256]⟩
abbrev S2x512x512x256 : Shape := ⟨4, ![2, 512, 512, 256]⟩
abbrev S2x512x512x128 : Shape := ⟨4, ![2, 512, 512, 128]⟩
abbrev S1x1x1x128 : Shape := ⟨4, ![1, 1, 1, 128]⟩
abbrev S_ : Shape := ⟨0, ![]⟩
abbrev S2x512x512x64 : Shape := ⟨4, ![2, 512, 512, 64]⟩
abbrev S1x1x1x64 : Shape := ⟨4, ![1, 1, 1, 64]⟩
abbrev S2x512x512x32 : Shape := ⟨4, ![2, 512, 512, 32]⟩
abbrev S1x1x1x32 : Shape := ⟨4, ![1, 1, 1, 32]⟩
abbrev S2x512x512x1 : Shape := ⟨4, ![2, 512, 512, 1]⟩
abbrev S1x1x1x1 : Shape := ⟨4, ![1, 1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x512x512, .f32⟩
  | .hbm, ⟨2, _⟩ => ⟨S2x512x512, .f32⟩
  | .hbm, ⟨3, _⟩ => ⟨S2x512x512, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S2x512x256, .f32⟩
  | .hbm, ⟨13, _⟩ => ⟨S2x512x1x256, .f32⟩
  | .hbm, ⟨14, _⟩ => ⟨S2x1x512x256, .f32⟩
  | .hbm, ⟨15, _⟩ => ⟨S2x512x512x256, .f32⟩
  | .hbm, ⟨16, _⟩ => ⟨S2x512x512x256, .f32⟩
  | .hbm, ⟨17, _⟩ => ⟨S2x512x512x256, .f32⟩
  | .hbm, ⟨18, _⟩ => ⟨S2x512x512x128, .f32⟩
  | .hbm, ⟨19, _⟩ => ⟨S1x1x1x128, .f32⟩
  | .hbm, ⟨20, _⟩ => ⟨S2x512x512x128, .f32⟩
  | .hbm, ⟨21, _⟩ => ⟨S2x512x512x128, .f32⟩
  | .hbm, ⟨22, _⟩ => ⟨S_, .f32⟩
  | .hbm, ⟨23, _⟩ => ⟨S2x512x512x128, .f32⟩
  | .hbm, ⟨24, _⟩ => ⟨S2x512x512x128, .f32⟩
  | .hbm, ⟨25, _⟩ => ⟨S2x512x512x64, .f32⟩
  | .hbm, ⟨26, _⟩ => ⟨S1x1x1x64, .f32⟩
  | .hbm, ⟨27, _⟩ => ⟨S2x512x512x64, .f32⟩
  | .hbm, ⟨28, _⟩ => ⟨S2x512x512x64, .f32⟩
  | .hbm, ⟨29, _⟩ => ⟨S_, .f32⟩
  | .hbm, ⟨30, _⟩ => ⟨S2x512x512x64, .f32⟩
  | .hbm, ⟨31, _⟩ => ⟨S2x512x512x64, .f32⟩
  | .hbm, ⟨32, _⟩ => ⟨S2x512x512x32, .f32⟩
  | .hbm, ⟨33, _⟩ => ⟨S1x1x1x32, .f32⟩
  | .hbm, ⟨34, _⟩ => ⟨S2x512x512x32, .f32⟩
  | .hbm, ⟨35, _⟩ => ⟨S2x512x512x32, .f32⟩
  | .hbm, ⟨36, _⟩ => ⟨S_, .f32⟩
  | .hbm, ⟨37, _⟩ => ⟨S2x512x512x32, .f32⟩
  | .hbm, ⟨38, _⟩ => ⟨S2x512x512x32, .f32⟩
  | .hbm, ⟨39, _⟩ => ⟨S2x512x512x1, .f32⟩
  | .hbm, ⟨40, _⟩ => ⟨S1x1x1x1, .f32⟩
  | .hbm, ⟨41, _⟩ => ⟨S2x512x512x1, .f32⟩
  | .hbm, ⟨42, _⟩ => ⟨S2x512x512x1, .f32⟩
  | .hbm, ⟨43, _⟩ => ⟨S2x512x512, .f32⟩
  | .hbm, ⟨44, _⟩ => ⟨S_, .f32⟩
  | .hbm, ⟨45, _⟩ => ⟨S2x512x512, .f32⟩
  | .hbm, ⟨46, _⟩ => ⟨S2x512x512, .f32⟩
  | .hbm, ⟨47, _⟩ => ⟨S2x512x512, .f32⟩
  | .hbm, ⟨48, _⟩ => ⟨S2x512x512, .f32⟩
  | .hbm, ⟨49, _⟩ => ⟨S2x512x512, .f32⟩
  | .hbm, ⟨50, _⟩ => ⟨S2x512x512, .f32⟩
  | .hbm, ⟨51, _⟩ => ⟨S2x512x512, .f32⟩
  | .hbm, ⟨52, _⟩ => ⟨S2x512x512, .f32⟩
  | .hbm, ⟨53, _⟩ => ⟨S2x512x512, .f32⟩
  | .hbm, ⟨54, _⟩ => ⟨S2x512x512, .f32⟩
  | .hbm, ⟨55, _⟩ => ⟨S2x512x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_cst : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_cst : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_0 : Ref sig .tc := ⟨.hbm, 56, rfl⟩
abbrev main_v37 : Ref sig .tc := ⟨.hbm, 57, rfl⟩
abbrev main_cst_1 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  transposes_S2x256x512_S2x512x256_0_2_1 : S2x256x512.Transposes [0, 2, 1] S2x512x256
  bcast_S2x512x256_S2x512x1x256_0_1_3 : S2x512x256.BroadcastsInDim S2x512x1x256 (![0, 1, 3] : Fin 3 → Fin S2x512x1x256.rank)
  bcast_S2x512x256_S2x1x512x256_0_2_3 : S2x512x256.BroadcastsInDim S2x1x512x256 (![0, 2, 3] : Fin 3 → Fin S2x1x512x256.rank)
  bcast_S2x512x1x256_S2x512x512x256_0_1_2_3 : S2x512x1x256.BroadcastsInDim S2x512x512x256 (![0, 1, 2, 3] : Fin 4 → Fin S2x512x512x256.rank)
  bcast_S2x1x512x256_S2x512x512x256_0_1_2_3 : S2x1x512x256.BroadcastsInDim S2x512x512x256 (![0, 1, 2, 3] : Fin 4 → Fin S2x512x512x256.rank)
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  bcast_S_S2x512x512x128 : S_.BroadcastsInDim S2x512x512x128 (![] : Fin 0 → Fin S2x512x512x128.rank)
  bcast_S64_S1x1x1x64_3 : S64.BroadcastsInDim S1x1x1x64 (![3] : Fin 1 → Fin S1x1x1x64.rank)
  bcast_S1x1x1x64_S2x512x512x64_0_1_2_3 : S1x1x1x64.BroadcastsInDim S2x512x512x64 (![0, 1, 2, 3] : Fin 4 → Fin S2x512x512x64.rank)
  bcast_S_S2x512x512x64 : S_.BroadcastsInDim S2x512x512x64 (![] : Fin 0 → Fin S2x512x512x64.rank)
  bcast_S32_S1x1x1x32_3 : S32.BroadcastsInDim S1x1x1x32 (![3] : Fin 1 → Fin S1x1x1x32.rank)
  bcast_S1x1x1x32_S2x512x512x32_0_1_2_3 : S1x1x1x32.BroadcastsInDim S2x512x512x32 (![0, 1, 2, 3] : Fin 4 → Fin S2x512x512x32.rank)
  bcast_S_S2x512x512x32 : S_.BroadcastsInDim S2x512x512x32 (![] : Fin 0 → Fin S2x512x512x32.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  shapeCasts_S2x512x512x1_S2x512x512 : S2x512x512x1.ShapeCasts S2x512x512
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  dot_S2x512x512x256_S256x128_S2x512x512x128_3_0_012_1_n_n_wf : DotDims.WF S2x512x512x256 S256x128 S2x512x512x128 [3] [0] [0, 1, 2] [1] [] []
  dot_S2x512x512x128_S128x64_S2x512x512x64_3_0_012_1_n_n_wf : DotDims.WF S2x512x512x128 S128x64 S2x512x512x64 [3] [0] [0, 1, 2] [1] [] []
  dot_S2x512x512x64_S64x32_S2x512x512x32_3_0_012_1_n_n_wf : DotDims.WF S2x512x512x64 S64x32 S2x512x512x32 [3] [0] [0, 1, 2] [1] [] []
  dot_S2x512x512x32_S32x1_S2x512x512x1_3_0_012_1_n_n_wf : DotDims.WF S2x512x512x32 S32x1 S2x512x512x1 [3] [0] [0, 1, 2] [1] [] []

variable [Facts₀]

def dot_S2x512x512x256_S256x128_S2x512x512x128_3_0_012_1_n_n : DotDims S2x512x512x256 S256x128 S2x512x512x128 where
  lhsContracting := [3]
  rhsContracting := [0]
  lhsNonContracting := [0, 1, 2]
  rhsNonContracting := [1]
  lhsBatch := []
  rhsBatch := []
  wf := dot_S2x512x512x256_S256x128_S2x512x512x128_3_0_012_1_n_n_wf
def dot_S2x512x512x128_S128x64_S2x512x512x64_3_0_012_1_n_n : DotDims S2x512x512x128 S128x64 S2x512x512x64 where
  lhsContracting := [3]
  rhsContracting := [0]
  lhsNonContracting := [0, 1, 2]
  rhsNonContracting := [1]
  lhsBatch := []
  rhsBatch := []
  wf := dot_S2x512x512x128_S128x64_S2x512x512x64_3_0_012_1_n_n_wf
def dot_S2x512x512x64_S64x32_S2x512x512x32_3_0_012_1_n_n : DotDims S2x512x512x64 S64x32 S2x512x512x32 where
  lhsContracting := [3]
  rhsContracting := [0]
  lhsNonContracting := [0, 1, 2]
  rhsNonContracting := [1]
  lhsBatch := []
  rhsBatch := []
  wf := dot_S2x512x512x64_S64x32_S2x512x512x32_3_0_012_1_n_n_wf
def dot_S2x512x512x32_S32x1_S2x512x512x1_3_0_012_1_n_n : DotDims S2x512x512x32 S32x1 S2x512x512x1 where
  lhsContracting := [3]
  rhsContracting := [0]
  lhsNonContracting := [0, 1, 2]
  rhsNonContracting := [1]
  lhsBatch := []
  rhsBatch := []
  wf := dot_S2x512x512x32_S32x1_S2x512x512x1_3_0_012_1_n_n_wf

class Facts : Prop extends Facts₀ where

variable [Facts]
-- ==== Proof.BodyK.lean ====
/-
  One grid point of the pairwise head. The body reads eleven staging buffers whole — two blocks of the transposed
  point array, the four weight matrices and the four bias vectors, and (without using it) the output block — and
  stores one [1, 128, 128] block of logits, the whole of its output buffer. Here: the stored block as a function of
  the ten input buffers' contents, that the one store covers the output buffer, and the body's triple — from the ten
  inputs at known contents and the output buffer at any, it runs to the end without a fault, leaves the inputs as
  they were and the output buffer at that block. The float instance is arbitrary.
-/
import proofs.«151052_j16801912062758_1_alg».proof.Proof.Gen.Kernel.Launch
import proofs.«151052_j16801912062758_1_alg».proof.Proof.Gen.Kernel.Skeleton
import proofs.«151052_j16801912062758_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rP : Rect S1x128x256 := Rect.unit (s := S1x128x256) ![0, 0, 0] S1x128x256.size inb_S1x128x256_S1x128x256_0_0_0
abbrev rW0 : Rect S256x128 := Rect.unit (s := S256x128) ![0, 0] S256x128.size inb_S256x128_S256x128_0_0
abbrev rB0 : Rect S128 := Rect.unit (s := S128) ![0] S128.size inb_S128_S128_0
abbrev rW1 : Rect S128x64 := Rect.unit (s := S128x64) ![0, 0] S128x64.size inb_S128x64_S128x64_0_0
abbrev rB1 : Rect S64 := Rect.unit (s := S64) ![0] S64.size inb_S64_S64_0
abbrev rW2 : Rect S64x32 := Rect.unit (s := S64x32) ![0, 0] S64x32.size inb_S64x32_S64x32_0_0
abbrev rB2 : Rect S32 := Rect.unit (s := S32) ![0] S32.size inb_S32_S32_0
abbrev rW3 : Rect S32x1 := Rect.unit (s := S32x1) ![0, 0] S32x1.size inb_S32x1_S32x1_0_0
abbrev rB3 : Rect S1 := Rect.unit (s := S1) ![0] S1.size inb_S1_S1_0
abbrev rO : Rect S1x128x128 := Rect.unit (s := S1x128x128) ![0, 0, 0] S1x128x128.size inb_S1x128x128_S1x128x128_0_0_0

/-! ## What the body leaves in the output buffer -/

/-- The logits block the body stores, from the contents of the ten input buffers: the first three layers on the
    pairwise sums of the two point blocks, then the last layer. -/
def logits (x0 x1 : Vec F S1x128x256 .f32) (x2 : Vec F S256x128 .f32) (x3 : Vec F S128 .f32) (x4 : Vec F S128x64 .f32)
    (x5 : Vec F S64 .f32) (x6 : Vec F S64x32 .f32) (x7 : Vec F S32 .f32) (x8 : Vec F S32x1 .f32) (x9 : Vec F S1 .f32) :
    FVec F S1x128x128 .f32 :=
  k0_pay1 (k0_pay2 (View.ld x0 rP) (View.ld x1 rP) (View.ld x2 rW0) (View.ld x3 rB0) (View.ld x4 rW1) (View.ld x5 rB1) (View.ld x6 rW2))
    (k0_pay3 (View.ld x7 rB2)) (View.ld x8 rW3) (View.ld x9 rB3)

/-- The output buffer after the body: its one store, which is of the whole buffer. -/
def outBlock (x0 x1 : Vec F S1x128x256 .f32) (x2 : Vec F S256x128 .f32) (x3 : Vec F S128 .f32) (x4 : Vec F S128x64 .f32)
    (x5 : Vec F S64 .f32) (x6 : Vec F S64x32 .f32) (x7 : Vec F S32 .f32) (x8 : Vec F S32x1 .f32) (x9 : Vec F S1 .f32) :
    Vec F S1x128x128 .f32 :=
  View.canon [⟨rO, logits x0 x1 x2 x3 x4 x5 x6 x7 x8 x9⟩]

/-- The store covers the buffer. -/
theorem cover_out (p0 : Vec F S1x128x128 .f32) (y : S1x128x128.Idx) :
    ∃ pc ∈ ([⟨rO, p0⟩] : List (View.Piece (Elt F) S1x128x128 .f32)), y ∈ pc.1.set :=
  View.cover_of_tiled [⟨rO, p0⟩] S1x128x128.size (by rfl) y

/-! ## The body's triple -/

set_option maxHeartbeats 1000000 in
/-- From the ten input buffers whole at contents `x0 … x9` and the output buffer whole at anything, the body runs to
    its continuation holding the inputs as they were and the output buffer at `outBlock` of them. -/
theorem sound_kernel (c : Dev nD) (E : Set ℕ) (i : grid0.Coords)
    (a3 : Memref sig .tc .vmem S1x128x256 .f32) (h3 : a3.IsWhole) (a4 : Memref sig .tc .vmem S1x128x256 .f32) (h4 : a4.IsWhole)
    (a5 : Memref sig .tc .vmem S256x128 .f32) (h5 : a5.IsWhole) (a6 : Memref sig .tc .vmem S128 .f32) (h6 : a6.IsWhole)
    (a7 : Memref sig .tc .vmem S128x64 .f32) (h7 : a7.IsWhole) (a8 : Memref sig .tc .vmem S64 .f32) (h8 : a8.IsWhole)
    (a9 : Memref sig .tc .vmem S64x32 .f32) (h9 : a9.IsWhole) (a10 : Memref sig .tc .vmem S32 .f32) (h10 : a10.IsWhole)
    (a11 : Memref sig .tc .vmem S32x1 .f32) (h11 : a11.IsWhole) (a12 : Memref sig .tc .vmem S1 .f32) (h12 : a12.IsWhole)
    (a13 : Memref sig .tc .vmem S1x128x128 .f32) (h13 : a13.IsWhole)
    (x0 x1 : Vec F S1x128x256 .f32) (x2 : Vec F S256x128 .f32) (x3 : Vec F S128 .f32) (x4 : Vec F S128x64 .f32) (x5 : Vec F S64 .f32)
    (x6 : Vec F S64x32 .f32) (x7 : Vec F S32 .f32) (x8 : Vec F S32x1 .f32) (x9 : Vec F S1 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare x7 ∗ owns (c : Thread nD τ) a11 fullShare x8
        ∗ owns (c : Thread nD τ) a12 fullShare x9 ∗ (∃ d, owns (c : Thread nD τ) a13 fullShare d)
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare x5
            ∗ owns (c : Thread nD τ) a9 fullShare x6 ∗ owns (c : Thread nD τ) a10 fullShare x7 ∗ owns (c : Thread nD τ) a11 fullShare x8
            ∗ owns (c : Thread nD τ) a12 fullShare x9
            ∗ owns (c : Thread nD τ) a13 fullShare (outBlock x0 x1 x2 x3 x4 x5 x6 x7 x8 x9)) -∗ K ⟨⟩))
      ⊢ wp frame (wpE (defs₀ (F := F)) Variants.none c none) E
          (cc0__headedge_kernel i a3 h3 a4 h4 a5 h5 a6 h6 a7 h7 a8 h8 a9 h9 a10 h10 a11 h11 a12 h12 a13 h13) K := by
  simp only [cc0__headedge_kernel_eq_skeleton]; unfold cc0__headedge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  sl_unfold_run_names
  exact View.read_writes_eq_canon _ _ _ (cover_out _)

end Cert.Kernel.Hand

end
-- ==== Proof.DataK.lean ====
/-
  The proof data of the one pipeline, for any contents `V` of the arrays at the region's entry. A window's block at
  a grid point is its rectangle of its array read out. After the body at point t each of the ten input windows'
  staging buffers still holds that window's block, and the output window's holds the logits block of the ten input
  blocks. Windows 0 and 1 are two views of ONE array (the transposed points): the first is held at the left half of
  the array's share, the second at the right half; every other input at the full share. Then the body obligation at
  a generic point: each input's buffer holds its block whether or not the point fetched it, so the body's triple applies.
-/
import proofs.«151052_j16801912062758_1_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The share of its array each input window is held at: the two views of the transposed points the two halves. -/
def winShare (w : Fin cfg0.W) : PosShare TreeShare :=
  if w = 0 then fullShare.left else if w = 1 then fullShare.right else fullShare

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outBlock (iblk V c 0 t) (iblk V c 1 t) (iblk V c 2 t) (iblk V c 3 t) (iblk V c 4 t) (iblk V c 5 t) (iblk V c 6 t) (iblk V c 7 t) (iblk V c 8 t) (iblk V c 9 t)
  Φ _ := Pipeline.ΦA spec0 c
  q w := winShare w
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = outBlock (iblk V c 0 t) (iblk V c 1 t) (iblk V c 2 t) (iblk V c 3 t) (iblk V c 4 t) (iblk V c 5 t) (iblk V c 6 t) (iblk V c 7 t) (iblk V c 8 t) (iblk V c 9 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d
theorem before_3 (c : Dev nD) (t : Fin cfg0.N) (d) : (dat V c).before 3 t d = iblk V c 3 t :=
  before3_of V (dat V c) (A_eq V c 3) (after_3 V c) t d
theorem before_4 (c : Dev nD) (t : Fin cfg0.N) (d) : (dat V c).before 4 t d = iblk V c 4 t :=
  before4_of V (dat V c) (A_eq V c 4) (after_4 V c) t d
theorem before_5 (c : Dev nD) (t : Fin cfg0.N) (d) : (dat V c).before 5 t d = iblk V c 5 t :=
  before5_of V (dat V c) (A_eq V c 5) (after_5 V c) t d
theorem before_6 (c : Dev nD) (t : Fin cfg0.N) (d) : (dat V c).before 6 t d = iblk V c 6 t :=
  before6_of V (dat V c) (A_eq V c 6) (after_6 V c) t d
theorem before_7 (c : Dev nD) (t : Fin cfg0.N) (d) : (dat V c).before 7 t d = iblk V c 7 t :=
  before7_of V (dat V c) (A_eq V c 7) (after_7 V c) t d
theorem before_8 (c : Dev nD) (t : Fin cfg0.N) (d) : (dat V c).before 8 t d = iblk V c 8 t :=
  before8_of V (dat V c) (A_eq V c 8) (after_8 V c) t d
theorem before_9 (c : Dev nD) (t : Fin cfg0.N) (d) : (dat V c).before 9 t d = iblk V c 9 t :=
  before9_of V (dat V c) (A_eq V c 9) (after_9 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dat (F := F) V c) (defs₀ (F := F)) Variants.none () Set.univ := fun t => by
  rw [bigSep_W0, bigSep_W0]
  exact sound_body V c t

end Cert.Kernel.Hand

end
-- ==== Proof.LibSharedArrays.lean ====
/-
  Windows that share an array. A pipeline's proof data hold each window's array at a share of the window's own; when
  two input windows are views of ONE array, the array's full share is dealt between them, each half at the same
  contents, and joined again when the region is left. General in the pipeline:

  * `arrays_eq_shares`: the proof data's arrays, every array a whole buffer, are one whole-buffer points-to per
    window at that window's share (the library states this at the full share only);
  * `arrBufs_eq_of_list`: the DISTINCT buffers behind the windows' arrays, listed without repetition, as a chain;
  * `pointsTo_halves`: a points-to at the full share is the same contents held at its left and at its right half;
  * `unscopedBufs_of_arrBufs`: the buffers behind the arrays at new contents beside the untouched rest are the
    core's unscoped buffers at any valuation that agrees with the old one off the arrays.
-/
import Idealize.ShloMosaic.Lib.Pipeline.Kit
import Idealize.ShloMosaic.Lib.Pipeline.Launch

noncomputable section

namespace Cert.SharedArrays

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels}

/-- The proof data's arrays at contents `F`, every array a whole buffer: one points-to of the whole buffer per
    window, at the window's share. -/
theorem arrays_eq_shares (cfg : Cfg sig Λ₀) (c : Dev nD) (dat : Dat τ Val Ix Name U Lvl cfg c)
    (harr : ∀ w, (cfg.spec w).arr.IsWhole)
    (F : (w : Fin cfg.W) → Buf Val ((cfg.spec w).arr.view.loc (c.tc : Thread nD τ))) :
    dat.arrays F = bigSep Finset.univ fun w => (((c.tc : Thread nD τ).loc (arrRef cfg.spec w)) ↦{dat.share w} F w : sProp 𝕄) := by
  unfold Dat.arrays
  exact bigSep_congr fun w _ => by rw [(harr w).set_eq_univ]

/-- The distinct buffers behind the windows' arrays, listed. -/
theorem arrBufs_eq_of_list {gr W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp 𝕄)
      = bigSepL l fun b => ((c.tc : Thread nD τ).loc b) ↦{fullShare} V b := by
  unfold arrBufs; exact bigSep_eq_bigSepL_of_eq l h hl _

/-- A buffer whole at the full share is the buffer at the left half and at the right half, at the same contents. -/
theorem pointsTo_halves (ℓ : Loc nD τ sig) (f : Buf Val ℓ) :
    (ℓ ↦{fullShare} f : sProp 𝕄) ⊣⊢ iprop((ℓ ↦{fullShare.left} f) ∗ ℓ ↦{fullShare.right} f) :=
  pointsTo_share (PosShare.mem_left_op_right fullShare)

/-- The buffers behind the arrays at `V'` and the unscoped rest at `V` are the core's unscoped buffers at `V'`,
    when `V'` agrees with `V` off the arrays. -/
theorem unscopedBufs_of_arrBufs {gr W : Nat} (win : Fin W → WinSpec sig gr) (hunscoped : ∀ w, (arrRef win w).isScoped = false)
    (c : Dev nD) (V V' : (b : Ref sig .tc) → Buf Val ((c.tc : Thread nD τ).loc b))
    (hrest : ∀ b, b ∉ Finset.univ.image (arrRef win) → V' b = V b) :
    iprop((arrBufs win c V' : sProp 𝕄) ∗ unscopedRest win c V) ⊢ (unscopedBufs c V' : sProp 𝕄) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  have e : (unscopedBufs c V' : sProp 𝕄) = iprop((arrBufs win c V' : sProp 𝕄) ∗ unscopedRest win c V') := by
    unfold unscopedBufs unscopedRest arrBufs
    rw [bigSep_sdiff_split hA]
    rfl
  rw [e]
  refine sep_mono .rfl (Entails.of_eq ?_)
  unfold unscopedRest
  exact bigSep_congr fun b hb => by rw [hrest b (Finset.mem_sdiff.mp hb).2]

/-- The core's unscoped buffers at `V` are the buffers behind the arrays and the unscoped rest, the arrays distinct or not. -/
theorem unscopedBufs_split_arrBufs {gr W : Nat} (win : Fin W → WinSpec sig gr) (hunscoped : ∀ w, (arrRef win w).isScoped = false)
    (c : Dev nD) (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [bigSep_sdiff_split hA]
  rfl

end Cert.SharedArrays

end
-- ==== Proof.RunK.lean ====
/-
  The run of @main: the host transpose, the pipelined region, the seventeen host operations of the loss — as three
  segments over one thread state, "every unscoped buffer of the core at a named valuation". At the region's entry
  the arrays the windows stage are taken out of that state; the transposed point array, which TWO windows read, is
  held by the first at the left half of its share and by the second at the right half, at the same contents. At the
  exit the two halves, unchanged, are joined again, the weights and biases come back as they went in, and the output
  array comes back at what the pipeline's write-backs left; every other buffer is untouched. The run ends with every
  unscoped buffer at the last valuation: the entry contents, the logits array replaced, then the loss operations.
-/
import proofs.«151052_j16801912062758_1_alg».proof.Proof.DataK
import proofs.«151052_j16801912062758_1_alg».proof.Proof.LibSharedArrays

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable {F : FTy → Type} [FloatOps F]

local notation "𝕄" => MT nD τ sig Unit (Elt F) ℕ (UR sig nD τ) ℕ

/-! ## The windows' arrays among the unscoped buffers -/

section Arrays

variable (V : (c : Dev nD) → (b : Ref sig .tc) → Buf (Elt F) ((c : Thread nD τ).loc b))

theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl
theorem share_5 (c : Dev nD) : (dat V c).share 5 = fullShare := rfl
theorem share_6 (c : Dev nD) : (dat V c).share 6 = fullShare := rfl
theorem share_7 (c : Dev nD) : (dat V c).share 7 = fullShare := rfl
theorem share_8 (c : Dev nD) : (dat V c).share 8 = fullShare := rfl
theorem share_9 (c : Dev nD) : (dat V c).share 9 = fullShare := rfl
theorem share_10 (c : Dev nD) : (dat V c).share 10 = fullShare := rfl

/-- The ten distinct buffers behind the eleven windows' arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_arg4) ↦{fullShare} V' main_arg4) ∗ (((c : Thread nD τ).loc main_arg5) ↦{fullShare} V' main_arg5) ∗ (((c : Thread nD τ).loc main_arg6) ↦{fullShare} V' main_arg6) ∗ (((c : Thread nD τ).loc main_arg7) ↦{fullShare} V' main_arg7) ∗ (((c : Thread nD τ).loc main_arg8) ↦{fullShare} V' main_arg8) ∗ (((c : Thread nD τ).loc main_arg9) ↦{fullShare} V' main_arg9) ∗ (((c : Thread nD τ).loc main_arg10) ↦{fullShare} V' main_arg10) ∗ (((c : Thread nD τ).loc main_arg11) ↦{fullShare} V' main_arg11) ∗ (((c : Thread nD τ).loc main_v1) ↦{fullShare} V' main_v1)) :=
  Cert.SharedArrays.arrBufs_eq_of_list spec0 c V' [main_v0, main_arg4, main_arg5, main_arg6, main_arg7, main_arg8, main_arg9, main_arg10, main_arg11, main_v1] (by decide) (by decide)

/-- A buffer held at equal contents. -/
theorem pt_congr {ℓ : Loc nD τ sig} {q : PosShare TreeShare} {f g : Buf (Elt F) ℓ} (h : f = g) :
    (ℓ ↦{q} f : sProp 𝕄) ⊢ (ℓ ↦{q} g : sProp 𝕄) := by rw [h]

/-- ENTRY: the ten distinct buffers behind the eleven windows' arrays, each whole at the full share, are the proof
    data's arrays at the entry contents — the transposed points' share halved between its two windows. -/
theorem arrays_entry (c : Dev nD) :
    (Pipeline.arrBufs (Ix := Unit) (Name := ℕ) (U := UR sig nD τ) (Lvl := ℕ) spec0 c (V c) : sProp 𝕄)
      ⊢ (dat V c).arrays ((dat V c).arrAt · 0) := by
  rw [arrBufs0_eq, Cert.SharedArrays.arrays_eq_shares cfg0 c (dat V c) arr_whole0, bigSep_W0]
  simp only [share_0, share_1, share_2, share_3, share_4, share_5, share_6, share_7, share_8, share_9, share_10]
  iintro ⟨Hp, H4, H5, H6, H7, H8, H9, H10, H11, Ho⟩
  ihave Hh := (Cert.SharedArrays.pointsTo_halves _ _).1 $$ Hp
  icases Hh with ⟨Hl, Hr⟩
  isplitl [Hl]; · iexact Hl
  isplitl [Hr]; · iexact Hr
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Ho

/-- EXIT: the proof data's arrays after every write-back are those ten buffers at any contents `V'` that has the
    output array at what the write-backs left and every other array as at entry: an input array is never written,
    and the two halves of the transposed points, at the same contents still, are the whole. -/
theorem arrays_exit (c : Dev nD) (V' : (b : Ref sig .tc) → Buf (Elt F) ((c : Thread nD τ).loc b))
    (hkeep : ∀ b, b ≠ main_v1 → V' b = V c b) (hout : V' main_v1 = (dat V c).arrAt 10 cfg0.N) :
    (dat V c).arrays ((dat V c).arrAt · cfg0.N)
      ⊢ (Pipeline.arrBufs (Ix := Unit) (Name := ℕ) (U := UR sig nD τ) (Lvl := ℕ) spec0 c V' : sProp 𝕄) := by
  have e0 : ((dat V c).arrAt 0 cfg0.N : Buf (Elt F) ((c : Thread nD τ).loc main_v0)) = V' main_v0 :=
    ((dat V c).arrAt_in 0 rfl _).trans (hkeep main_v0 (by decide)).symm
  have e1 : ((dat V c).arrAt 1 cfg0.N : Buf (Elt F) ((c : Thread nD τ).loc main_v0)) = V' main_v0 :=
    ((dat V c).arrAt_in 1 rfl _).trans (hkeep main_v0 (by decide)).symm
  have e2 : ((dat V c).arrAt 2 cfg0.N : Buf (Elt F) ((c : Thread nD τ).loc main_arg4)) = V' main_arg4 :=
    ((dat V c).arrAt_in 2 rfl _).trans (hkeep main_arg4 (by decide)).symm
  have e3 : ((dat V c).arrAt 3 cfg0.N : Buf (Elt F) ((c : Thread nD τ).loc main_arg5)) = V' main_arg5 :=
    ((dat V c).arrAt_in 3 rfl _).trans (hkeep main_arg5 (by decide)).symm
  have e4 : ((dat V c).arrAt 4 cfg0.N : Buf (Elt F) ((c : Thread nD τ).loc main_arg6)) = V' main_arg6 :=
    ((dat V c).arrAt_in 4 rfl _).trans (hkeep main_arg6 (by decide)).symm
  have e5 : ((dat V c).arrAt 5 cfg0.N : Buf (Elt F) ((c : Thread nD τ).loc main_arg7)) = V' main_arg7 :=
    ((dat V c).arrAt_in 5 rfl _).trans (hkeep main_arg7 (by decide)).symm
  have e6 : ((dat V c).arrAt 6 cfg0.N : Buf (Elt F) ((c : Thread nD τ).loc main_arg8)) = V' main_arg8 :=
    ((dat V c).arrAt_in 6 rfl _).trans (hkeep main_arg8 (by decide)).symm
  have e7 : ((dat V c).arrAt 7 cfg0.N : Buf (Elt F) ((c : Thread nD τ).loc main_arg9)) = V' main_arg9 :=
    ((dat V c).arrAt_in 7 rfl _).trans (hkeep main_arg9 (by decide)).symm
  have e8 : ((dat V c).arrAt 8 cfg0.N : Buf (Elt F) ((c : Thread nD τ).loc main_arg10)) = V' main_arg10 :=
    ((dat V c).arrAt_in 8 rfl _).trans (hkeep main_arg10 (by decide)).symm
  have e9 : ((dat V c).arrAt 9 cfg0.N : Buf (Elt F) ((c : Thread nD τ).loc main_arg11)) = V' main_arg11 :=
    ((dat V c).arrAt_in 9 rfl _).trans (hkeep main_arg11 (by decide)).symm
  rw [arrBufs0_eq, Cert.SharedArrays.arrays_eq_shares cfg0 c (dat V c) arr_whole0, bigSep_W0]
  simp only [share_0, share_1, share_2, share_3, share_4, share_5, share_6, share_7, share_8, share_9, share_10]
  iintro ⟨Hl, Hr, H4, H5, H6, H7, H8, H9, H10, H11, Ho⟩
  isplitl [Hl Hr]
  · iapply (Cert.SharedArrays.pointsTo_halves _ _).2
    isplitl [Hl]; · iapply (pt_congr e0); iexact Hl
    iapply (pt_congr e1); iexact Hr
  isplitl [H4]; · iapply (pt_congr e2); iexact H4
  isplitl [H5]; · iapply (pt_congr e3); iexact H5
  isplitl [H6]; · iapply (pt_congr e4); iexact H6
  isplitl [H7]; · iapply (pt_congr e5); iexact H7
  isplitl [H8]; · iapply (pt_congr e6); iexact H8
  isplitl [H9]; · iapply (pt_congr e7); iexact H9
  isplitl [H10]; · iapply (pt_congr e8); iexact H10
  isplitl [H11]; · iapply (pt_congr e9); iexact H11
  iapply (pt_congr hout.symm); iexact Ho

end Arrays

/-! ## The contents at each segment boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the transpose: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the logits array at what the pipeline leaves, every other buffer as entered. -/
def W2 (c : Dev nD) : Valuation τ sig (Elt F) :=
  Function.update (W1 m ρ c) (Proc.devRef .tc main_v1) ((dat (V1 m ρ) c).arrAt 10 cfg0.N)
theorem W2_v1 (c : Dev nD) : W2 m ρ c (Proc.devRef .tc main_v1) = (dat (V1 m ρ) c).arrAt 10 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (fun e => hb (Proc.devRef_injective _ e)) ..
abbrev V2 : (c : Dev nD) → (b : Ref sig .tc) → Buf (Elt F) ((c : Thread nD τ).loc b) := fun c b => W2 m ρ c b
/-- After the loss operations: the end. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((dat (V1 m ρ) c).arrays ((dat (V1 m ρ) c).arrAt · 0) ∗ Pipeline.unscopedRest spec0 c (V1 m ρ c)) := by
      rw [Cert.SharedArrays.unscopedBufs_split_arrBufs spec0 winFacts₀0.arr_unscoped c (V1 m ρ c)]
      exact sep_mono (arrays_entry (V1 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat (V1 m ρ) c).arrays ((dat (V1 m ρ) c).arrAt · cfg0.N) ∗ Pipeline.unscopedRest spec0 c (V1 m ρ c))
        ⊢ (unscopedBufs (Ix := Unit) (Name := ℕ) (U := UR sig nD τ) (Lvl := ℕ) c (V2 m ρ c) : sProp 𝕄) :=
      (sep_mono (arrays_exit (V1 m ρ) c (V2 m ρ c) (fun b hb => W2_of_ne m ρ c b hb) (W2_v1 m ρ c)) .rfl).trans
        (Cert.SharedArrays.unscopedBufs_of_arrBufs spec0 winFacts₀0.arr_unscoped c (V1 m ρ c) (V2 m ρ c)
          (fun b hb => W2_of_ne m ρ c b fun e => hb (e ▸ (by decide : main_v1 ∈ Finset.univ.image (Pipeline.arrRef spec0)))))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.HostSidesK.lean ====
/-
  The host operations of the kernel program around its region, read as values.

  Before the region one operation runs: the point array [2, 256, 512] is transposed to [2, 512, 256]. After the
  region seventeen operations turn the logits p, the targets h and the two masks m, q (all [2, 512, 512]) into one
  number: with ℓ = max (p, 0) − p · h + log1p (exp (− |p|)), the sum of ℓ · m · q over all entries divided by the
  sum of q over all entries. lossOf is that number as one function of the four arrays. From any contents of the
  buffers, the first stretch leaves the transpose in its result buffer and every other buffer as it was; the second
  leaves lossOf of the logits' buffer and the three argument buffers in its last result buffer, and leaves the
  arguments, the transpose and the logits as they were. Neither stretch allocates a buffer.
-/
import proofs.«151052_j16801912062758_1_alg».proof.Proof.Gen.Kernel.Launch
import Idealize.ShloMosaic.Lib.StableHlo.Run
import Idealize.ShloMosaic.Lib.Pipeline.Frame

noncomputable section

namespace Cert.Kernel.Hand

open Idealize.ShloMosaic Idealize.ShloMosaic.TcCoe Idealize.SL.Sem
open Cert.Kernel Cert.Kernel.Gen

variable {F : FTy → Type} [FloatOps F]

/-- The loss of logits pred against targets heat under the masks msk and pos: the sum over all entries of
    (max (pred, 0) − pred · heat + log1p (exp (− |pred|))) · msk · pos, divided by the sum of pos. -/
def lossOf (pred heat msk pos : (⟨S2x512x512, .f32⟩ : BufTy).Contents (Elt F)) : (⟨S_, .f32⟩ : BufTy).Contents (Elt F) :=
  Host.divf (F := F)
    (Host.reduceAdd (F := F)
      (mulf
        (mulf
          (addf
            (subf
              (maximumf pred (broadcastInDim S2x512x512 ![] bcast_S_S2x512x512 (constant (F := F) S_ .f32 0x00000000#32)))
              (mulf pred heat))
            (Host.log1p (F := F) (Host.exp (F := F) (Host.negf (F := F) (Host.absf (F := F) pred)))))
          msk)
        pos)
      (constant (F := F) S_ .f32 0x00000000#32) reducesTo_S2x512x512_S_d0_1_2 h_S_)
    (Host.reduceAdd (F := F) pos (constant (F := F) S_ .f32 0x00000000#32) reducesTo_S2x512x512_S_d0_1_2 h_S_)

/-! ## The operation before the region -/

/-- The one operation before the region leaves the transposed point array in its result buffer. -/
theorem after0_v0 (W : Valuation τ sig (Elt F)) :
    StableHlo.after (hostOps0 (F := F)) W (Proc.devRef .tc main_v0)
      = transpose S2x512x256 [0, 2, 1] (W (Proc.devRef .tc main_arg0)) transposes_S2x256x512_S2x512x256_0_2_1 := by
  after_results

/-- It leaves every other buffer as it was. -/
theorem after0_keep (W : Valuation τ sig (Elt F)) (b : Ref sig .tc) (hb : b ≠ main_v0) :
    StableHlo.after (hostOps0 (F := F)) W (Proc.devRef .tc b) = W (Proc.devRef .tc b) :=
  StableHlo.after_of_forall_not_mem _ _ (List.forall_iff_forall_mem.mp (by
    simp only [hostOps0, List.Forall, StableHlo.unary_writes, Finset.mem_singleton]
    exact StableHlo.devRef_ne_of_ne hb))

theorem after0_arg0 (W : Valuation τ sig (Elt F)) : StableHlo.after (hostOps0 (F := F)) W (Proc.devRef .tc main_arg0) = W (Proc.devRef .tc main_arg0) := after0_keep W main_arg0 (by decide)
theorem after0_arg1 (W : Valuation τ sig (Elt F)) : StableHlo.after (hostOps0 (F := F)) W (Proc.devRef .tc main_arg1) = W (Proc.devRef .tc main_arg1) := after0_keep W main_arg1 (by decide)
theorem after0_arg2 (W : Valuation τ sig (Elt F)) : StableHlo.after (hostOps0 (F := F)) W (Proc.devRef .tc main_arg2) = W (Proc.devRef .tc main_arg2) := after0_keep W main_arg2 (by decide)
theorem after0_arg3 (W : Valuation τ sig (Elt F)) : StableHlo.after (hostOps0 (F := F)) W (Proc.devRef .tc main_arg3) = W (Proc.devRef .tc main_arg3) := after0_keep W main_arg3 (by decide)
theorem after0_arg4 (W : Valuation τ sig (Elt F)) : StableHlo.after (hostOps0 (F := F)) W (Proc.devRef .tc main_arg4) = W (Proc.devRef .tc main_arg4) := after0_keep W main_arg4 (by decide)
theorem after0_arg5 (W : Valuation τ sig (Elt F)) : StableHlo.after (hostOps0 (F := F)) W (Proc.devRef .tc main_arg5) = W (Proc.devRef .tc main_arg5) := after0_keep W main_arg5 (by decide)
theorem after0_arg6 (W : Valuation τ sig (Elt F)) : StableHlo.after (hostOps0 (F := F)) W (Proc.devRef .tc main_arg6) = W (Proc.devRef .tc main_arg6) := after0_keep W main_arg6 (by decide)
theorem after0_arg7 (W : Valuation τ sig (Elt F)) : StableHlo.after (hostOps0 (F := F)) W (Proc.devRef .tc main_arg7) = W (Proc.devRef .tc main_arg7) := after0_keep W main_arg7 (by decide)
theorem after0_arg8 (W : Valuation τ sig (Elt F)) : StableHlo.after (hostOps0 (F := F)) W (Proc.devRef .tc main_arg8) = W (Proc.devRef .tc main_arg8) := after0_keep W main_arg8 (by decide)
theorem after0_arg9 (W : Valuation τ sig (Elt F)) : StableHlo.after (hostOps0 (F := F)) W (Proc.devRef .tc main_arg9) = W (Proc.devRef .tc main_arg9) := after0_keep W main_arg9 (by decide)
theorem after0_arg10 (W : Valuation τ sig (Elt F)) : StableHlo.after (hostOps0 (F := F)) W (Proc.devRef .tc main_arg10) = W (Proc.devRef .tc main_arg10) := after0_keep W main_arg10 (by decide)
theorem after0_arg11 (W : Valuation τ sig (Elt F)) : StableHlo.after (hostOps0 (F := F)) W (Proc.devRef .tc main_arg11) = W (Proc.devRef .tc main_arg11) := after0_keep W main_arg11 (by decide)
theorem after0_v1 (W : Valuation τ sig (Elt F)) : StableHlo.after (hostOps0 (F := F)) W (Proc.devRef .tc main_v1) = W (Proc.devRef .tc main_v1) := after0_keep W main_v1 (by decide)

/-- It allocates nothing. -/
theorem hostOps0_fresh : (hostOps0 : List (HloOp τ sig (Elt F))).Forall fun op => op.fresh = ∅ := by
  simp only [List.Forall]; repeat' constructor

/-! ## The operations after the region -/

/-- The seventeen operations after the region leave, in the last result buffer, the loss of the logits' buffer
    against the three argument buffers. -/
theorem after1_v15 (W : Valuation τ sig (Elt F)) :
    StableHlo.after (hostOps1 (F := F)) W (Proc.devRef .tc main_v15)
      = lossOf (W (Proc.devRef .tc main_v1)) (W (Proc.devRef .tc main_arg1)) (W (Proc.devRef .tc main_arg2))
          (W (Proc.devRef .tc main_arg3)) := by
  after_results
  rfl

/-- The buffers the seventeen operations write: their result buffers. -/
def written1 : List (Ref sig .tc) :=
  [main_cst, main_v2, main_v3, main_v4, main_v5, main_v6, main_v7, main_v8, main_v9, main_v10, main_v11, main_v12,
    main_cst_0, main_v13, main_cst_1, main_v14, main_v15]

/-- They leave every buffer that is no result buffer of theirs as it was. -/
theorem after1_keep (W : Valuation τ sig (Elt F)) (b : Ref sig .tc) (hb : b ∉ written1) :
    StableHlo.after (hostOps1 (F := F)) W (Proc.devRef .tc b) = W (Proc.devRef .tc b) := by
  simp only [written1, List.mem_cons, List.mem_nil_iff, or_false, not_or] at hb
  obtain ⟨h0, h1, h2, h3, h4, h5, h6, h7, h8, h9, h10, h11, h12, h13, h14, h15, h16⟩ := hb
  exact StableHlo.after_of_forall_not_mem _ _ (List.forall_iff_forall_mem.mp (by
    simp only [hostOps1, List.Forall, StableHlo.nullary_writes, StableHlo.unary_writes, StableHlo.binary_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8,
      StableHlo.devRef_ne_of_ne h9, StableHlo.devRef_ne_of_ne h10, StableHlo.devRef_ne_of_ne h11,
      StableHlo.devRef_ne_of_ne h12, StableHlo.devRef_ne_of_ne h13, StableHlo.devRef_ne_of_ne h14,
      StableHlo.devRef_ne_of_ne h15, StableHlo.devRef_ne_of_ne h16⟩))

theorem after1_arg0 (W : Valuation τ sig (Elt F)) : StableHlo.after (hostOps1 (F := F)) W (Proc.devRef .tc main_arg0) = W (Proc.devRef .tc main_arg0) := after1_keep W main_arg0 (by decide)
theorem after1_arg1 (W : Valuation τ sig (Elt F)) : StableHlo.after (hostOps1 (F := F)) W (Proc.devRef .tc main_arg1) = W (Proc.devRef .tc main_arg1) := after1_keep W main_arg1 (by decide)
theorem after1_arg2 (W : Valuation τ sig (Elt F)) : StableHlo.after (hostOps1 (F := F)) W (Proc.devRef .tc main_arg2) = W (Proc.devRef .tc main_arg2) := after1_keep W main_arg2 (by decide)
theorem after1_arg3 (W : Valuation τ sig (Elt F)) : StableHlo.after (hostOps1 (F := F)) W (Proc.devRef .tc main_arg3) = W (Proc.devRef .tc main_arg3) := after1_keep W main_arg3 (by decide)
theorem after1_arg4 (W : Valuation τ sig (Elt F)) : StableHlo.after (hostOps1 (F := F)) W (Proc.devRef .tc main_arg4) = W (Proc.devRef .tc main_arg4) := after1_keep W main_arg4 (by decide)
theorem after1_arg5 (W : Valuation τ sig (Elt F)) : StableHlo.after (hostOps1 (F := F)) W (Proc.devRef .tc main_arg5) = W (Proc.devRef .tc main_arg5) := after1_keep W main_arg5 (by decide)
theorem after1_arg6 (W : Valuation τ sig (Elt F)) : StableHlo.after (hostOps1 (F := F)) W (Proc.devRef .tc main_arg6) = W (Proc.devRef .tc main_arg6) := after1_keep W main_arg6 (by decide)
theorem after1_arg7 (W : Valuation τ sig (Elt F)) : StableHlo.after (hostOps1 (F := F)) W (Proc.devRef .tc main_arg7) = W (Proc.devRef .tc main_arg7) := after1_keep W main_arg7 (by decide)
theorem after1_arg8 (W : Valuation τ sig (Elt F)) : StableHlo.after (hostOps1 (F := F)) W (Proc.devRef .tc main_arg8) = W (Proc.devRef .tc main_arg8) := after1_keep W main_arg8 (by decide)
theorem after1_arg9 (W : Valuation τ sig (Elt F)) : StableHlo.after (hostOps1 (F := F)) W (Proc.devRef .tc main_arg9) = W (Proc.devRef .tc main_arg9) := after1_keep W main_arg9 (by decide)
theorem after1_arg10 (W : Valuation τ sig (Elt F)) : StableHlo.after (hostOps1 (F := F)) W (Proc.devRef .tc main_arg10) = W (Proc.devRef .tc main_arg10) := after1_keep W main_arg10 (by decide)
theorem after1_arg11 (W : Valuation τ sig (Elt F)) : StableHlo.after (hostOps1 (F := F)) W (Proc.devRef .tc main_arg11) = W (Proc.devRef .tc main_arg11) := after1_keep W main_arg11 (by decide)
theorem after1_v0 (W : Valuation τ sig (Elt F)) : StableHlo.after (hostOps1 (F := F)) W (Proc.devRef .tc main_v0) = W (Proc.devRef .tc main_v0) := after1_keep W main_v0 (by decide)
theorem after1_v1 (W : Valuation τ sig (Elt F)) : StableHlo.after (hostOps1 (F := F)) W (Proc.devRef .tc main_v1) = W (Proc.devRef .tc main_v1) := after1_keep W main_v1 (by decide)

/-- They allocate nothing. -/
theorem hostOps1_fresh : (hostOps1 : List (HloOp τ sig (Elt F))).Forall fun op => op.fresh = ∅ := by
  simp only [List.Forall]; repeat' constructor

end Cert.Kernel.Hand

end
-- ==== Proof.FrameK.lean ====
/-
  What the run's last valuation holds. No host operation and no write-back touches an argument array, so each ends
  as launched: that is the frame. The region enters with the transposed points in their buffer and the weights and
  biases as launched; the logits array ends at what the pipeline's write-backs left, and the loss buffer at the loss
  of that array against the targets and the two masks as launched.
-/
import proofs.«151052_j16801912062758_1_alg».proof.Proof.RunK
import proofs.«151052_j16801912062758_1_alg».proof.Proof.HostSidesK

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A buffer no host operation writes and the region does not write ends as launched. -/
theorem W3_keep (c : Dev nD) (b : Ref sig .tc) (h1 : b ∉ written1) (h2 : b ≠ main_v1) (h3 : b ≠ main_v0) :
    W3 m ρ c (Proc.devRef .tc b) = m ((c : Thread nD τ).loc b) :=
  (after1_keep (W2 m ρ c) b h1).trans ((W2_of_ne m ρ c b h2).trans (after0_keep (W0 m ρ c) b h3))

/-- At the region's exit, likewise. -/
theorem W2_keep (c : Dev nD) (b : Ref sig .tc) (h2 : b ≠ main_v1) (h3 : b ≠ main_v0) :
    W2 m ρ c (Proc.devRef .tc b) = m ((c : Thread nD τ).loc b) :=
  (W2_of_ne m ρ c b h2).trans (after0_keep (W0 m ρ c) b h3)

/-- At the region's entry, likewise. -/
theorem V1_keep (c : Dev nD) (b : Ref sig .tc) (h3 : b ≠ main_v0) : V1 m ρ c b = m ((c : Thread nD τ).loc b) :=
  after0_keep (W0 m ρ c) b h3

/-- The region enters with the transposed points. -/
theorem V1_v0 (c : Dev nD) :
    V1 m ρ c main_v0 = transpose S2x512x256 [0, 2, 1] (m ((c : Thread nD τ).loc main_arg0)) transposes_S2x256x512_S2x512x256_0_2_1 :=
  after0_v0 (W0 m ρ c)

/-- The logits array ends at what the write-backs left. -/
theorem W3_v1 (c : Dev nD) : W3 m ρ c (Proc.devRef .tc main_v1) = (dat (V1 m ρ) c).arrAt 10 cfg0.N :=
  (after1_v1 (W2 m ρ c)).trans (W2_v1 m ρ c)

/-- The loss buffer ends at the loss of that array against the targets and masks as launched. -/
theorem W3_v15 (c : Dev nD) :
    W3 m ρ c (Proc.devRef .tc main_v15)
      = lossOf ((dat (V1 m ρ) c).arrAt 10 cfg0.N) (m ((c : Thread nD τ).loc main_arg1)) (m ((c : Thread nD τ).loc main_arg2))
          (m ((c : Thread nD τ).loc main_arg3)) := by
  refine (after1_v15 (W2 m ρ c)).trans ?_
  rw [W2_v1, W2_keep m ρ c main_arg1 (by decide) (by decide), W2_keep m ρ c main_arg2 (by decide) (by decide),
    W2_keep m ρ c main_arg3 (by decide) (by decide)]

/-- THE FRAME: every weakly fair execution of @main terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W3_keep m ρ c main_arg0 (by decide) (by decide) (by decide)),
    (h c _ (mem_uc main_arg1 (by decide))).trans (W3_keep m ρ c main_arg1 (by decide) (by decide) (by decide)),
    (h c _ (mem_uc main_arg2 (by decide))).trans (W3_keep m ρ c main_arg2 (by decide) (by decide) (by decide)),
    (h c _ (mem_uc main_arg3 (by decide))).trans (W3_keep m ρ c main_arg3 (by decide) (by decide) (by decide)),
    (h c _ (mem_uc main_arg4 (by decide))).trans (W3_keep m ρ c main_arg4 (by decide) (by decide) (by decide)),
    (h c _ (mem_uc main_arg5 (by decide))).trans (W3_keep m ρ c main_arg5 (by decide) (by decide) (by decide)),
    (h c _ (mem_uc main_arg6 (by decide))).trans (W3_keep m ρ c main_arg6 (by decide) (by decide) (by decide)),
    (h c _ (mem_uc main_arg7 (by decide))).trans (W3_keep m ρ c main_arg7 (by decide) (by decide) (by decide)),
    (h c _ (mem_uc main_arg8 (by decide))).trans (W3_keep m ρ c main_arg8 (by decide) (by decide) (by decide)),
    (h c _ (mem_uc main_arg9 (by decide))).trans (W3_keep m ρ c main_arg9 (by decide) (by decide) (by decide)),
    (h c _ (mem_uc main_arg10 (by decide))).trans (W3_keep m ρ c main_arg10 (by decide) (by decide) (by decide)),
    (h c _ (mem_uc main_arg11 (by decide))).trans (W3_keep m ρ c main_arg11 (by decide) (by decide) (by decide))⟩) (run_main m ρ)

/-- THE RUN WITH ITS RESULTS NAMED: the logits array at what the write-backs left, the loss buffer at the loss of
    that array, the argument arrays as launched. -/
theorem run_values : θ_run defs (onTc (τ := τ) (main (F := F))) ⟨m, fun _ => 0, ρ⟩ (fun r => ∀ c : Dev nD,
      r.2.mem ((c.tc : Thread nD τ).loc main_v1) = (dat (V1 m ρ) c).arrAt 10 cfg0.N
      ∧ r.2.mem ((c.tc : Thread nD τ).loc main_v15)
          = lossOf ((dat (V1 m ρ) c).arrAt 10 cfg0.N) (m ((c : Thread nD τ).loc main_arg1)) (m ((c : Thread nD τ).loc main_arg2))
              (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_v1 (by decide))).trans (W3_v1 m ρ c),
    (h c _ (mem_uc main_v15 (by decide))).trans (W3_v15 m ρ c),
    (h c _ (mem_uc main_arg0 (by decide))).trans (W3_keep m ρ c main_arg0 (by decide) (by decide) (by decide)),
    (h c _ (mem_uc main_arg1 (by decide))).trans (W3_keep m ρ c main_arg1 (by decide) (by decide) (by decide)),
    (h c _ (mem_uc main_arg2 (by decide))).trans (W3_keep m ρ c main_arg2 (by decide) (by decide) (by decide)),
    (h c _ (mem_uc main_arg3 (by decide))).trans (W3_keep m ρ c main_arg3 (by decide) (by decide) (by decide)),
    (h c _ (mem_uc main_arg4 (by decide))).trans (W3_keep m ρ c main_arg4 (by decide) (by decide) (by decide)),
    (h c _ (mem_uc main_arg5 (by decide))).trans (W3_keep m ρ c main_arg5 (by decide) (by decide) (by decide)),
    (h c _ (mem_uc main_arg6 (by decide))).trans (W3_keep m ρ c main_arg6 (by decide) (by decide) (by decide)),
    (h c _ (mem_uc main_arg7 (by decide))).trans (W3_keep m ρ c main_arg7 (by decide) (by decide) (by decide)),
    (h c _ (mem_uc main_arg8 (by decide))).trans (W3_keep m ρ c main_arg8 (by decide) (by decide) (by decide)),
    (h c _ (mem_uc main_arg9 (by decide))).trans (W3_keep m ρ c main_arg9 (by decide) (by decide) (by decide)),
    (h c _ (mem_uc main_arg10 (by decide))).trans (W3_keep m ρ c main_arg10 (by decide) (by decide) (by decide)),
    (h c _ (mem_uc main_arg11 (by decide))).trans (W3_keep m ρ c main_arg11 (by decide) (by decide) (by decide))⟩) (run_main m ρ)

end Cert.Kernel.Hand

end
-- ==== Proof.BodyKI.lean ====
/-
  One grid point of the pairwise head. The body reads eleven staging buffers whole — two blocks of the transposed
  point array, the four weight matrices and the four bias vectors, and (without using it) the output block — and
  stores one [1, 128, 128] block of logits, the whole of its output buffer. Here: the stored block as a function of
  the ten input buffers' contents, that the one store covers the output buffer, and the body's triple — from the ten
  inputs at known contents and the output buffer at any, it runs to the end without a fault, leaves the inputs as
  they were and the output buffer at that block. The float instance is arbitrary.
-/
import proofs.«151052_j16801912062758_1_alg».proof.Proof.Gen.KernelIdeal.Launch
import proofs.«151052_j16801912062758_1_alg».proof.Proof.Gen.KernelIdeal.Skeleton
import proofs.«151052_j16801912062758_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rP : Rect S1x128x256 := Rect.unit (s := S1x128x256) ![0, 0, 0] S1x128x256.size inb_S1x128x256_S1x128x256_0_0_0
abbrev rW0 : Rect S256x128 := Rect.unit (s := S256x128) ![0, 0] S256x128.size inb_S256x128_S256x128_0_0
abbrev rB0 : Rect S128 := Rect.unit (s := S128) ![0] S128.size inb_S128_S128_0
abbrev rW1 : Rect S128x64 := Rect.unit (s := S128x64) ![0, 0] S128x64.size inb_S128x64_S128x64_0_0
abbrev rB1 : Rect S64 := Rect.unit (s := S64) ![0] S64.size inb_S64_S64_0
abbrev rW2 : Rect S64x32 := Rect.unit (s := S64x32) ![0, 0] S64x32.size inb_S64x32_S64x32_0_0
abbrev rB2 : Rect S32 := Rect.unit (s := S32) ![0] S32.size inb_S32_S32_0
abbrev rW3 : Rect S32x1 := Rect.unit (s := S32x1) ![0, 0] S32x1.size inb_S32x1_S32x1_0_0
abbrev rB3 : Rect S1 := Rect.unit (s := S1) ![0] S1.size inb_S1_S1_0
abbrev rO : Rect S1x128x128 := Rect.unit (s := S1x128x128) ![0, 0, 0] S1x128x128.size inb_S1x128x128_S1x128x128_0_0_0

/-! ## What the body leaves in the output buffer -/

/-- The logits block the body stores, from the contents of the ten input buffers: the first three layers on the
    pairwise sums of the two point blocks, then the last layer. -/
def logits (x0 x1 : Vec F S1x128x256 .f32) (x2 : Vec F S256x128 .f32) (x3 : Vec F S128 .f32) (x4 : Vec F S128x64 .f32)
    (x5 : Vec F S64 .f32) (x6 : Vec F S64x32 .f32) (x7 : Vec F S32 .f32) (x8 : Vec F S32x1 .f32) (x9 : Vec F S1 .f32) :
    FVec F S1x128x128 .f32 :=
  k0_pay1 (k0_pay2 (View.ld x0 rP) (View.ld x1 rP) (View.ld x2 rW0) (View.ld x3 rB0) (View.ld x4 rW1) (View.ld x5 rB1) (View.ld x6 rW2))
    (k0_pay3 (View.ld x7 rB2)) (View.ld x8 rW3) (View.ld x9 rB3)

/-- The output buffer after the body: its one store, which is of the whole buffer. -/
def outBlock (x0 x1 : Vec F S1x128x256 .f32) (x2 : Vec F S256x128 .f32) (x3 : Vec F S128 .f32) (x4 : Vec F S128x64 .f32)
    (x5 : Vec F S64 .f32) (x6 : Vec F S64x32 .f32) (x7 : Vec F S32 .f32) (x8 : Vec F S32x1 .f32) (x9 : Vec F S1 .f32) :
    Vec F S1x128x128 .f32 :=
  View.canon [⟨rO, logits x0 x1 x2 x3 x4 x5 x6 x7 x8 x9⟩]

/-- The store covers the buffer. -/
theorem cover_out (p0 : Vec F S1x128x128 .f32) (y : S1x128x128.Idx) :
    ∃ pc ∈ ([⟨rO, p0⟩] : List (View.Piece (Elt F) S1x128x128 .f32)), y ∈ pc.1.set :=
  View.cover_of_tiled [⟨rO, p0⟩] S1x128x128.size (by rfl) y

/-! ## The body's triple -/

set_option maxHeartbeats 1000000 in
/-- From the ten input buffers whole at contents `x0 … x9` and the output buffer whole at anything, the body runs to
    its continuation holding the inputs as they were and the output buffer at `outBlock` of them. -/
theorem sound_kernel (c : Dev nD) (E : Set ℕ) (i : grid0.Coords)
    (a3 : Memref sig .tc .vmem S1x128x256 .f32) (h3 : a3.IsWhole) (a4 : Memref sig .tc .vmem S1x128x256 .f32) (h4 : a4.IsWhole)
    (a5 : Memref sig .tc .vmem S256x128 .f32) (h5 : a5.IsWhole) (a6 : Memref sig .tc .vmem S128 .f32) (h6 : a6.IsWhole)
    (a7 : Memref sig .tc .vmem S128x64 .f32) (h7 : a7.IsWhole) (a8 : Memref sig .tc .vmem S64 .f32) (h8 : a8.IsWhole)
    (a9 : Memref sig .tc .vmem S64x32 .f32) (h9 : a9.IsWhole) (a10 : Memref sig .tc .vmem S32 .f32) (h10 : a10.IsWhole)
    (a11 : Memref sig .tc .vmem S32x1 .f32) (h11 : a11.IsWhole) (a12 : Memref sig .tc .vmem S1 .f32) (h12 : a12.IsWhole)
    (a13 : Memref sig .tc .vmem S1x128x128 .f32) (h13 : a13.IsWhole)
    (x0 x1 : Vec F S1x128x256 .f32) (x2 : Vec F S256x128 .f32) (x3 : Vec F S128 .f32) (x4 : Vec F S128x64 .f32) (x5 : Vec F S64 .f32)
    (x6 : Vec F S64x32 .f32) (x7 : Vec F S32 .f32) (x8 : Vec F S32x1 .f32) (x9 : Vec F S1 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare x7 ∗ owns (c : Thread nD τ) a11 fullShare x8
        ∗ owns (c : Thread nD τ) a12 fullShare x9 ∗ (∃ d, owns (c : Thread nD τ) a13 fullShare d)
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare x5
            ∗ owns (c : Thread nD τ) a9 fullShare x6 ∗ owns (c : Thread nD τ) a10 fullShare x7 ∗ owns (c : Thread nD τ) a11 fullShare x8
            ∗ owns (c : Thread nD τ) a12 fullShare x9
            ∗ owns (c : Thread nD τ) a13 fullShare (outBlock x0 x1 x2 x3 x4 x5 x6 x7 x8 x9)) -∗ K ⟨⟩))
      ⊢ wp frame (wpE (defs₀ (F := F)) Variants.none c none) E
          (cc0__headedge_kernel i a3 h3 a4 h4 a5 h5 a6 h6 a7 h7 a8 h8 a9 h9 a10 h10 a11 h11 a12 h12 a13 h13) K := by
  simp only [cc0__headedge_kernel_eq_skeleton]; unfold cc0__headedge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  sl_unfold_run_names
  exact View.read_writes_eq_canon _ _ _ (cover_out _)

end Cert.KernelIdeal.Hand

end
-- ==== Proof.DataKI.lean ====
/-
  The proof data of the one pipeline, for any contents `V` of the arrays at the region's entry. A window's block at
  a grid point is its rectangle of its array read out. After the body at point t each of the ten input windows'
  staging buffers still holds that window's block, and the output window's holds the logits block of the ten input
  blocks. Windows 0 and 1 are two views of ONE array (the transposed points): the first is held at the left half of
  the array's share, the second at the right half; every other input at the full share. Then the body obligation at
  a generic point: each input's buffer holds its block whether or not the point fetched it, so the body's triple applies.
-/
import proofs.«151052_j16801912062758_1_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The share of its array each input window is held at: the two views of the transposed points the two halves. -/
def winShare (w : Fin cfg0.W) : PosShare TreeShare :=
  if w = 0 then fullShare.left else if w = 1 then fullShare.right else fullShare

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outBlock (iblk V c 0 t) (iblk V c 1 t) (iblk V c 2 t) (iblk V c 3 t) (iblk V c 4 t) (iblk V c 5 t) (iblk V c 6 t) (iblk V c 7 t) (iblk V c 8 t) (iblk V c 9 t)
  Φ _ := Pipeline.ΦA spec0 c
  q w := winShare w
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = outBlock (iblk V c 0 t) (iblk V c 1 t) (iblk V c 2 t) (iblk V c 3 t) (iblk V c 4 t) (iblk V c 5 t) (iblk V c 6 t) (iblk V c 7 t) (iblk V c 8 t) (iblk V c 9 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d
theorem before_3 (c : Dev nD) (t : Fin cfg0.N) (d) : (dat V c).before 3 t d = iblk V c 3 t :=
  before3_of V (dat V c) (A_eq V c 3) (after_3 V c) t d
theorem before_4 (c : Dev nD) (t : Fin cfg0.N) (d) : (dat V c).before 4 t d = iblk V c 4 t :=
  before4_of V (dat V c) (A_eq V c 4) (after_4 V c) t d
theorem before_5 (c : Dev nD) (t : Fin cfg0.N) (d) : (dat V c).before 5 t d = iblk V c 5 t :=
  before5_of V (dat V c) (A_eq V c 5) (after_5 V c) t d
theorem before_6 (c : Dev nD) (t : Fin cfg0.N) (d) : (dat V c).before 6 t d = iblk V c 6 t :=
  before6_of V (dat V c) (A_eq V c 6) (after_6 V c) t d
theorem before_7 (c : Dev nD) (t : Fin cfg0.N) (d) : (dat V c).before 7 t d = iblk V c 7 t :=
  before7_of V (dat V c) (A_eq V c 7) (after_7 V c) t d
theorem before_8 (c : Dev nD) (t : Fin cfg0.N) (d) : (dat V c).before 8 t d = iblk V c 8 t :=
  before8_of V (dat V c) (A_eq V c 8) (after_8 V c) t d
theorem before_9 (c : Dev nD) (t : Fin cfg0.N) (d) : (dat V c).before 9 t d = iblk V c 9 t :=
  before9_of V (dat V c) (A_eq V c 9) (after_9 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.RunKI.lean ====
/-
  The run of @main: the host transpose, the pipelined region, the seventeen host operations of the loss — as three
  segments over one thread state, "every unscoped buffer of the core at a named valuation". At the region's entry
  the arrays the windows stage are taken out of that state; the transposed point array, which TWO windows read, is
  held by the first at the left half of its share and by the second at the right half, at the same contents. At the
  exit the two halves, unchanged, are joined again, the weights and biases come back as they went in, and the output
  array comes back at what the pipeline's write-backs left; every other buffer is untouched. The run ends with every
  unscoped buffer at the last valuation: the entry contents, the logits array replaced, then the loss operations.
-/
import proofs.«151052_j16801912062758_1_alg».proof.Proof.DataKI
import proofs.«151052_j16801912062758_1_alg».proof.Proof.LibSharedArrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable {F : FTy → Type} [FloatOps F]

local notation "𝕄" => MT nD τ sig Unit (Elt F) ℕ (UR sig nD τ) ℕ

/-! ## The windows' arrays among the unscoped buffers -/

section Arrays

variable (V : (c : Dev nD) → (b : Ref sig .tc) → Buf (Elt F) ((c : Thread nD τ).loc b))

theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl
theorem share_5 (c : Dev nD) : (dat V c).share 5 = fullShare := rfl
theorem share_6 (c : Dev nD) : (dat V c).share 6 = fullShare := rfl
theorem share_7 (c : Dev nD) : (dat V c).share 7 = fullShare := rfl
theorem share_8 (c : Dev nD) : (dat V c).share 8 = fullShare := rfl
theorem share_9 (c : Dev nD) : (dat V c).share 9 = fullShare := rfl
theorem share_10 (c : Dev nD) : (dat V c).share 10 = fullShare := rfl

/-- The ten distinct buffers behind the eleven windows' arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_arg4) ↦{fullShare} V' main_arg4) ∗ (((c : Thread nD τ).loc main_arg5) ↦{fullShare} V' main_arg5) ∗ (((c : Thread nD τ).loc main_arg6) ↦{fullShare} V' main_arg6) ∗ (((c : Thread nD τ).loc main_arg7) ↦{fullShare} V' main_arg7) ∗ (((c : Thread nD τ).loc main_arg8) ↦{fullShare} V' main_arg8) ∗ (((c : Thread nD τ).loc main_arg9) ↦{fullShare} V' main_arg9) ∗ (((c : Thread nD τ).loc main_arg10) ↦{fullShare} V' main_arg10) ∗ (((c : Thread nD τ).loc main_arg11) ↦{fullShare} V' main_arg11) ∗ (((c : Thread nD τ).loc main_v1) ↦{fullShare} V' main_v1)) :=
  Cert.SharedArrays.arrBufs_eq_of_list spec0 c V' [main_v0, main_arg4, main_arg5, main_arg6, main_arg7, main_arg8, main_arg9, main_arg10, main_arg11, main_v1] (by decide) (by decide)

/-- A buffer held at equal contents. -/
theorem pt_congr {ℓ : Loc nD τ sig} {q : PosShare TreeShare} {f g : Buf (Elt F) ℓ} (h : f = g) :
    (ℓ ↦{q} f : sProp 𝕄) ⊢ (ℓ ↦{q} g : sProp 𝕄) := by rw [h]

/-- ENTRY: the ten distinct buffers behind the eleven windows' arrays, each whole at the full share, are the proof
    data's arrays at the entry contents — the transposed points' share halved between its two windows. -/
theorem arrays_entry (c : Dev nD) :
    (Pipeline.arrBufs (Ix := Unit) (Name := ℕ) (U := UR sig nD τ) (Lvl := ℕ) spec0 c (V c) : sProp 𝕄)
      ⊢ (dat V c).arrays ((dat V c).arrAt · 0) := by
  rw [arrBufs0_eq, Cert.SharedArrays.arrays_eq_shares cfg0 c (dat V c) arr_whole0, bigSep_W0]
  simp only [share_0, share_1, share_2, share_3, share_4, share_5, share_6, share_7, share_8, share_9, share_10]
  iintro ⟨Hp, H4, H5, H6, H7, H8, H9, H10, H11, Ho⟩
  ihave Hh := (Cert.SharedArrays.pointsTo_halves _ _).1 $$ Hp
  icases Hh with ⟨Hl, Hr⟩
  isplitl [Hl]; · iexact Hl
  isplitl [Hr]; · iexact Hr
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Ho

/-- EXIT: the proof data's arrays after every write-back are those ten buffers at any contents `V'` that has the
    output array at what the write-backs left and every other array as at entry: an input array is never written,
    and the two halves of the transposed points, at the same contents still, are the whole. -/
theorem arrays_exit (c : Dev nD) (V' : (b : Ref sig .tc) → Buf (Elt F) ((c : Thread nD τ).loc b))
    (hkeep : ∀ b, b ≠ main_v1 → V' b = V c b) (hout : V' main_v1 = (dat V c).arrAt 10 cfg0.N) :
    (dat V c).arrays ((dat V c).arrAt · cfg0.N)
      ⊢ (Pipeline.arrBufs (Ix := Unit) (Name := ℕ) (U := UR sig nD τ) (Lvl := ℕ) spec0 c V' : sProp 𝕄) := by
  have e0 : ((dat V c).arrAt 0 cfg0.N : Buf (Elt F) ((c : Thread nD τ).loc main_v0)) = V' main_v0 :=
    ((dat V c).arrAt_in 0 rfl _).trans (hkeep main_v0 (by decide)).symm
  have e1 : ((dat V c).arrAt 1 cfg0.N : Buf (Elt F) ((c : Thread nD τ).loc main_v0)) = V' main_v0 :=
    ((dat V c).arrAt_in 1 rfl _).trans (hkeep main_v0 (by decide)).symm
  have e2 : ((dat V c).arrAt 2 cfg0.N : Buf (Elt F) ((c : Thread nD τ).loc main_arg4)) = V' main_arg4 :=
    ((dat V c).arrAt_in 2 rfl _).trans (hkeep main_arg4 (by decide)).symm
  have e3 : ((dat V c).arrAt 3 cfg0.N : Buf (Elt F) ((c : Thread nD τ).loc main_arg5)) = V' main_arg5 :=
    ((dat V c).arrAt_in 3 rfl _).trans (hkeep main_arg5 (by decide)).symm
  have e4 : ((dat V c).arrAt 4 cfg0.N : Buf (Elt F) ((c : Thread nD τ).loc main_arg6)) = V' main_arg6 :=
    ((dat V c).arrAt_in 4 rfl _).trans (hkeep main_arg6 (by decide)).symm
  have e5 : ((dat V c).arrAt 5 cfg0.N : Buf (Elt F) ((c : Thread nD τ).loc main_arg7)) = V' main_arg7 :=
    ((dat V c).arrAt_in 5 rfl _).trans (hkeep main_arg7 (by decide)).symm
  have e6 : ((dat V c).arrAt 6 cfg0.N : Buf (Elt F) ((c : Thread nD τ).loc main_arg8)) = V' main_arg8 :=
    ((dat V c).arrAt_in 6 rfl _).trans (hkeep main_arg8 (by decide)).symm
  have e7 : ((dat V c).arrAt 7 cfg0.N : Buf (Elt F) ((c : Thread nD τ).loc main_arg9)) = V' main_arg9 :=
    ((dat V c).arrAt_in 7 rfl _).trans (hkeep main_arg9 (by decide)).symm
  have e8 : ((dat V c).arrAt 8 cfg0.N : Buf (Elt F) ((c : Thread nD τ).loc main_arg10)) = V' main_arg10 :=
    ((dat V c).arrAt_in 8 rfl _).trans (hkeep main_arg10 (by decide)).symm
  have e9 : ((dat V c).arrAt 9 cfg0.N : Buf (Elt F) ((c : Thread nD τ).loc main_arg11)) = V' main_arg11 :=
    ((dat V c).arrAt_in 9 rfl _).trans (hkeep main_arg11 (by decide)).symm
  rw [arrBufs0_eq, Cert.SharedArrays.arrays_eq_shares cfg0 c (dat V c) arr_whole0, bigSep_W0]
  simp only [share_0, share_1, share_2, share_3, share_4, share_5, share_6, share_7, share_8, share_9, share_10]
  iintro ⟨Hl, Hr, H4, H5, H6, H7, H8, H9, H10, H11, Ho⟩
  isplitl [Hl Hr]
  · iapply (Cert.SharedArrays.pointsTo_halves _ _).2
    isplitl [Hl]; · iapply (pt_congr e0); iexact Hl
    iapply (pt_congr e1); iexact Hr
  isplitl [H4]; · iapply (pt_congr e2); iexact H4
  isplitl [H5]; · iapply (pt_congr e3); iexact H5
  isplitl [H6]; · iapply (pt_congr e4); iexact H6
  isplitl [H7]; · iapply (pt_congr e5); iexact H7
  isplitl [H8]; · iapply (pt_congr e6); iexact H8
  isplitl [H9]; · iapply (pt_congr e7); iexact H9
  isplitl [H10]; · iapply (pt_congr e8); iexact H10
  isplitl [H11]; · iapply (pt_congr e9); iexact H11
  iapply (pt_congr hout.symm); iexact Ho

end Arrays

/-! ## The contents at each segment boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the transpose: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the logits array at what the pipeline leaves, every other buffer as entered. -/
def W2 (c : Dev nD) : Valuation τ sig (Elt F) :=
  Function.update (W1 m ρ c) (Proc.devRef .tc main_v1) ((dat (V1 m ρ) c).arrAt 10 cfg0.N)
theorem W2_v1 (c : Dev nD) : W2 m ρ c (Proc.devRef .tc main_v1) = (dat (V1 m ρ) c).arrAt 10 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (fun e => hb (Proc.devRef_injective _ e)) ..
abbrev V2 : (c : Dev nD) → (b : Ref sig .tc) → Buf (Elt F) ((c : Thread nD τ).loc b) := fun c b => W2 m ρ c b
/-- After the loss operations: the end. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((dat (V1 m ρ) c).arrays ((dat (V1 m ρ) c).arrAt · 0) ∗ Pipeline.unscopedRest spec0 c (V1 m ρ c)) := by
      rw [Cert.SharedArrays.unscopedBufs_split_arrBufs spec0 winFacts₀0.arr_unscoped c (V1 m ρ c)]
      exact sep_mono (arrays_entry (V1 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat (V1 m ρ) c).arrays ((dat (V1 m ρ) c).arrAt · cfg0.N) ∗ Pipeline.unscopedRest spec0 c (V1 m ρ c))
        ⊢ (unscopedBufs (Ix := Unit) (Name := ℕ) (U := UR sig nD τ) (Lvl := ℕ) c (V2 m ρ c) : sProp 𝕄) :=
      (sep_mono (arrays_exit (V1 m ρ) c (V2 m ρ c) (fun b hb => W2_of_ne m ρ c b hb) (W2_v1 m ρ c)) .rfl).trans
        (Cert.SharedArrays.unscopedBufs_of_arrBufs spec0 winFacts₀0.arr_unscoped c (V1 m ρ c) (V2 m ρ c)
          (fun b hb => W2_of_ne m ρ c b fun e => hb (e ▸ (by decide : main_v1 ∈ Finset.univ.image (Pipeline.arrRef spec0)))))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.HostSidesKI.lean ====
/-
  The host operations of the kernel program around its region, read as values.

  Before the region one operation runs: the point array [2, 256, 512] is transposed to [2, 512, 256]. After the
  region seventeen operations turn the logits p, the targets h and the two masks m, q (all [2, 512, 512]) into one
  number: with ℓ = max (p, 0) − p · h + log1p (exp (− |p|)), the sum of ℓ · m · q over all entries divided by the
  sum of q over all entries. lossOf is that number as one function of the four arrays. From any contents of the
  buffers, the first stretch leaves the transpose in its result buffer and every other buffer as it was; the second
  leaves lossOf of the logits' buffer and the three argument buffers in its last result buffer, and leaves the
  arguments, the transpose and the logits as they were. Neither stretch allocates a buffer.
-/
import proofs.«151052_j16801912062758_1_alg».proof.Proof.Gen.KernelIdeal.Launch
import Idealize.ShloMosaic.Lib.StableHlo.Run
import Idealize.ShloMosaic.Lib.Pipeline.Frame

noncomputable section

namespace Cert.KernelIdeal.Hand

open Idealize.ShloMosaic Idealize.ShloMosaic.TcCoe Idealize.SL.Sem
open Cert.KernelIdeal Cert.KernelIdeal.Gen

variable {F : FTy → Type} [FloatOps F]

/-- The loss of logits pred against targets heat under the masks msk and pos: the sum over all entries of
    (max (pred, 0) − pred · heat + log1p (exp (− |pred|))) · msk · pos, divided by the sum of pos. -/
def lossOf (pred heat msk pos : (⟨S2x512x512, .f32⟩ : BufTy).Contents (Elt F)) : (⟨S_, .f32⟩ : BufTy).Contents (Elt F) :=
  Host.divf (F := F)
    (Host.reduceAdd (F := F)
      (mulf
        (mulf
          (addf
            (subf
              (maximumf pred (broadcastInDim S2x512x512 ![] bcast_S_S2x512x512 (constant (F := F) S_ .f32 0x00000000#32)))
              (mulf pred heat))
            (Host.log1p (F := F) (Host.exp (F := F) (Host.negf (F := F) (Host.absf (F := F) pred)))))
          msk)
        pos)
      (constant (F := F) S_ .f32 0x00000000#32) reducesTo_S2x512x512_S_d0_1_2 h_S_)
    (Host.reduceAdd (F := F) pos (constant (F := F) S_ .f32 0x00000000#32) reducesTo_S2x512x512_S_d0_1_2 h_S_)

/-! ## The operation before the region -/

/-- The one operation before the region leaves the transposed point array in its result buffer. -/
theorem after0_v0 (W : Valuation τ sig (Elt F)) :
    StableHlo.after (hostOps0 (F := F)) W (Proc.devRef .tc main_v0)
      = transpose S2x512x256 [0, 2, 1] (W (Proc.devRef .tc main_arg0)) transposes_S2x256x512_S2x512x256_0_2_1 := by
  after_results

/-- It leaves every other buffer as it was. -/
theorem after0_keep (W : Valuation τ sig (Elt F)) (b : Ref sig .tc) (hb : b ≠ main_v0) :
    StableHlo.after (hostOps0 (F := F)) W (Proc.devRef .tc b) = W (Proc.devRef .tc b) :=
  StableHlo.after_of_forall_not_mem _ _ (List.forall_iff_forall_mem.mp (by
    simp only [hostOps0, List.Forall, StableHlo.unary_writes, Finset.mem_singleton]
    exact StableHlo.devRef_ne_of_ne hb))

theorem after0_arg0 (W : Valuation τ sig (Elt F)) : StableHlo.after (hostOps0 (F := F)) W (Proc.devRef .tc main_arg0) = W (Proc.devRef .tc main_arg0) := after0_keep W main_arg0 (by decide)
theorem after0_arg1 (W : Valuation τ sig (Elt F)) : StableHlo.after (hostOps0 (F := F)) W (Proc.devRef .tc main_arg1) = W (Proc.devRef .tc main_arg1) := after0_keep W main_arg1 (by decide)
theorem after0_arg2 (W : Valuation τ sig (Elt F)) : StableHlo.after (hostOps0 (F := F)) W (Proc.devRef .tc main_arg2) = W (Proc.devRef .tc main_arg2) := after0_keep W main_arg2 (by decide)
theorem after0_arg3 (W : Valuation τ sig (Elt F)) : StableHlo.after (hostOps0 (F := F)) W (Proc.devRef .tc main_arg3) = W (Proc.devRef .tc main_arg3) := after0_keep W main_arg3 (by decide)
theorem after0_arg4 (W : Valuation τ sig (Elt F)) : StableHlo.after (hostOps0 (F := F)) W (Proc.devRef .tc main_arg4) = W (Proc.devRef .tc main_arg4) := after0_keep W main_arg4 (by decide)
theorem after0_arg5 (W : Valuation τ sig (Elt F)) : StableHlo.after (hostOps0 (F := F)) W (Proc.devRef .tc main_arg5) = W (Proc.devRef .tc main_arg5) := after0_keep W main_arg5 (by decide)
theorem after0_arg6 (W : Valuation τ sig (Elt F)) : StableHlo.after (hostOps0 (F := F)) W (Proc.devRef .tc main_arg6) = W (Proc.devRef .tc main_arg6) := after0_keep W main_arg6 (by decide)
theorem after0_arg7 (W : Valuation τ sig (Elt F)) : StableHlo.after (hostOps0 (F := F)) W (Proc.devRef .tc main_arg7) = W (Proc.devRef .tc main_arg7) := after0_keep W main_arg7 (by decide)
theorem after0_arg8 (W : Valuation τ sig (Elt F)) : StableHlo.after (hostOps0 (F := F)) W (Proc.devRef .tc main_arg8) = W (Proc.devRef .tc main_arg8) := after0_keep W main_arg8 (by decide)
theorem after0_arg9 (W : Valuation τ sig (Elt F)) : StableHlo.after (hostOps0 (F := F)) W (Proc.devRef .tc main_arg9) = W (Proc.devRef .tc main_arg9) := after0_keep W main_arg9 (by decide)
theorem after0_arg10 (W : Valuation τ sig (Elt F)) : StableHlo.after (hostOps0 (F := F)) W (Proc.devRef .tc main_arg10) = W (Proc.devRef .tc main_arg10) := after0_keep W main_arg10 (by decide)
theorem after0_arg11 (W : Valuation τ sig (Elt F)) : StableHlo.after (hostOps0 (F := F)) W (Proc.devRef .tc main_arg11) = W (Proc.devRef .tc main_arg11) := after0_keep W main_arg11 (by decide)
theorem after0_v1 (W : Valuation τ sig (Elt F)) : StableHlo.after (hostOps0 (F := F)) W (Proc.devRef .tc main_v1) = W (Proc.devRef .tc main_v1) := after0_keep W main_v1 (by decide)

/-- It allocates nothing. -/
theorem hostOps0_fresh : (hostOps0 : List (HloOp τ sig (Elt F))).Forall fun op => op.fresh = ∅ := by
  simp only [List.Forall]; repeat' constructor

/-! ## The operations after the region -/

/-- The seventeen operations after the region leave, in the last result buffer, the loss of the logits' buffer
    against the three argument buffers. -/
theorem after1_v15 (W : Valuation τ sig (Elt F)) :
    StableHlo.after (hostOps1 (F := F)) W (Proc.devRef .tc main_v15)
      = lossOf (W (Proc.devRef .tc main_v1)) (W (Proc.devRef .tc main_arg1)) (W (Proc.devRef .tc main_arg2))
          (W (Proc.devRef .tc main_arg3)) := by
  after_results
  rfl

/-- The buffers the seventeen operations write: their result buffers. -/
def written1 : List (Ref sig .tc) :=
  [main_cst, main_v2, main_v3, main_v4, main_v5, main_v6, main_v7, main_v8, main_v9, main_v10, main_v11, main_v12,
    main_cst_0, main_v13, main_cst_1, main_v14, main_v15]

/-- They leave every buffer that is no result buffer of theirs as it was. -/
theorem after1_keep (W : Valuation τ sig (Elt F)) (b : Ref sig .tc) (hb : b ∉ written1) :
    StableHlo.after (hostOps1 (F := F)) W (Proc.devRef .tc b) = W (Proc.devRef .tc b) := by
  simp only [written1, List.mem_cons, List.mem_nil_iff, or_false, not_or] at hb
  obtain ⟨h0, h1, h2, h3, h4, h5, h6, h7, h8, h9, h10, h11, h12, h13, h14, h15, h16⟩ := hb
  exact StableHlo.after_of_forall_not_mem _ _ (List.forall_iff_forall_mem.mp (by
    simp only [hostOps1, List.Forall, StableHlo.nullary_writes, StableHlo.unary_writes, StableHlo.binary_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8,
      StableHlo.devRef_ne_of_ne h9, StableHlo.devRef_ne_of_ne h10, StableHlo.devRef_ne_of_ne h11,
      StableHlo.devRef_ne_of_ne h12, StableHlo.devRef_ne_of_ne h13, StableHlo.devRef_ne_of_ne h14,
      StableHlo.devRef_ne_of_ne h15, StableHlo.devRef_ne_of_ne h16⟩))

theorem after1_arg0 (W : Valuation τ sig (Elt F)) : StableHlo.after (hostOps1 (F := F)) W (Proc.devRef .tc main_arg0) = W (Proc.devRef .tc main_arg0) := after1_keep W main_arg0 (by decide)
theorem after1_arg1 (W : Valuation τ sig (Elt F)) : StableHlo.after (hostOps1 (F := F)) W (Proc.devRef .tc main_arg1) = W (Proc.devRef .tc main_arg1) := after1_keep W main_arg1 (by decide)
theorem after1_arg2 (W : Valuation τ sig (Elt F)) : StableHlo.after (hostOps1 (F := F)) W (Proc.devRef .tc main_arg2) = W (Proc.devRef .tc main_arg2) := after1_keep W main_arg2 (by decide)
theorem after1_arg3 (W : Valuation τ sig (Elt F)) : StableHlo.after (hostOps1 (F := F)) W (Proc.devRef .tc main_arg3) = W (Proc.devRef .tc main_arg3) := after1_keep W main_arg3 (by decide)
theorem after1_arg4 (W : Valuation τ sig (Elt F)) : StableHlo.after (hostOps1 (F := F)) W (Proc.devRef .tc main_arg4) = W (Proc.devRef .tc main_arg4) := after1_keep W main_arg4 (by decide)
theorem after1_arg5 (W : Valuation τ sig (Elt F)) : StableHlo.after (hostOps1 (F := F)) W (Proc.devRef .tc main_arg5) = W (Proc.devRef .tc main_arg5) := after1_keep W main_arg5 (by decide)
theorem after1_arg6 (W : Valuation τ sig (Elt F)) : StableHlo.after (hostOps1 (F := F)) W (Proc.devRef .tc main_arg6) = W (Proc.devRef .tc main_arg6) := after1_keep W main_arg6 (by decide)
theorem after1_arg7 (W : Valuation τ sig (Elt F)) : StableHlo.after (hostOps1 (F := F)) W (Proc.devRef .tc main_arg7) = W (Proc.devRef .tc main_arg7) := after1_keep W main_arg7 (by decide)
theorem after1_arg8 (W : Valuation τ sig (Elt F)) : StableHlo.after (hostOps1 (F := F)) W (Proc.devRef .tc main_arg8) = W (Proc.devRef .tc main_arg8) := after1_keep W main_arg8 (by decide)
theorem after1_arg9 (W : Valuation τ sig (Elt F)) : StableHlo.after (hostOps1 (F := F)) W (Proc.devRef .tc main_arg9) = W (Proc.devRef .tc main_arg9) := after1_keep W main_arg9 (by decide)
theorem after1_arg10 (W : Valuation τ sig (Elt F)) : StableHlo.after (hostOps1 (F := F)) W (Proc.devRef .tc main_arg10) = W (Proc.devRef .tc main_arg10) := after1_keep W main_arg10 (by decide)
theorem after1_arg11 (W : Valuation τ sig (Elt F)) : StableHlo.after (hostOps1 (F := F)) W (Proc.devRef .tc main_arg11) = W (Proc.devRef .tc main_arg11) := after1_keep W main_arg11 (by decide)
theorem after1_v0 (W : Valuation τ sig (Elt F)) : StableHlo.after (hostOps1 (F := F)) W (Proc.devRef .tc main_v0) = W (Proc.devRef .tc main_v0) := after1_keep W main_v0 (by decide)
theorem after1_v1 (W : Valuation τ sig (Elt F)) : StableHlo.after (hostOps1 (F := F)) W (Proc.devRef .tc main_v1) = W (Proc.devRef .tc main_v1) := after1_keep W main_v1 (by decide)

/-- They allocate nothing. -/
theorem hostOps1_fresh : (hostOps1 : List (HloOp τ sig (Elt F))).Forall fun op => op.fresh = ∅ := by
  simp only [List.Forall]; repeat' constructor

end Cert.KernelIdeal.Hand

end
-- ==== Proof.FrameKI.lean ====
/-
  What the run's last valuation holds. No host operation and no write-back touches an argument array, so each ends
  as launched: that is the frame. The region enters with the transposed points in their buffer and the weights and
  biases as launched; the logits array ends at what the pipeline's write-backs left, and the loss buffer at the loss
  of that array against the targets and the two masks as launched.
-/
import proofs.«151052_j16801912062758_1_alg».proof.Proof.RunKI
import proofs.«151052_j16801912062758_1_alg».proof.Proof.HostSidesKI

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A buffer no host operation writes and the region does not write ends as launched. -/
theorem W3_keep (c : Dev nD) (b : Ref sig .tc) (h1 : b ∉ written1) (h2 : b ≠ main_v1) (h3 : b ≠ main_v0) :
    W3 m ρ c (Proc.devRef .tc b) = m ((c : Thread nD τ).loc b) :=
  (after1_keep (W2 m ρ c) b h1).trans ((W2_of_ne m ρ c b h2).trans (after0_keep (W0 m ρ c) b h3))

/-- At the region's exit, likewise. -/
theorem W2_keep (c : Dev nD) (b : Ref sig .tc) (h2 : b ≠ main_v1) (h3 : b ≠ main_v0) :
    W2 m ρ c (Proc.devRef .tc b) = m ((c : Thread nD τ).loc b) :=
  (W2_of_ne m ρ c b h2).trans (after0_keep (W0 m ρ c) b h3)

/-- At the region's entry, likewise. -/
theorem V1_keep (c : Dev nD) (b : Ref sig .tc) (h3 : b ≠ main_v0) : V1 m ρ c b = m ((c : Thread nD τ).loc b) :=
  after0_keep (W0 m ρ c) b h3

/-- The region enters with the transposed points. -/
theorem V1_v0 (c : Dev nD) :
    V1 m ρ c main_v0 = transpose S2x512x256 [0, 2, 1] (m ((c : Thread nD τ).loc main_arg0)) transposes_S2x256x512_S2x512x256_0_2_1 :=
  after0_v0 (W0 m ρ c)

/-- The logits array ends at what the write-backs left. -/
theorem W3_v1 (c : Dev nD) : W3 m ρ c (Proc.devRef .tc main_v1) = (dat (V1 m ρ) c).arrAt 10 cfg0.N :=
  (after1_v1 (W2 m ρ c)).trans (W2_v1 m ρ c)

/-- The loss buffer ends at the loss of that array against the targets and masks as launched. -/
theorem W3_v15 (c : Dev nD) :
    W3 m ρ c (Proc.devRef .tc main_v15)
      = lossOf ((dat (V1 m ρ) c).arrAt 10 cfg0.N) (m ((c : Thread nD τ).loc main_arg1)) (m ((c : Thread nD τ).loc main_arg2))
          (m ((c : Thread nD τ).loc main_arg3)) := by
  refine (after1_v15 (W2 m ρ c)).trans ?_
  rw [W2_v1, W2_keep m ρ c main_arg1 (by decide) (by decide), W2_keep m ρ c main_arg2 (by decide) (by decide),
    W2_keep m ρ c main_arg3 (by decide) (by decide)]

/-- THE FRAME: every weakly fair execution of @main terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W3_keep m ρ c main_arg0 (by decide) (by decide) (by decide)),
    (h c _ (mem_uc main_arg1 (by decide))).trans (W3_keep m ρ c main_arg1 (by decide) (by decide) (by decide)),
    (h c _ (mem_uc main_arg2 (by decide))).trans (W3_keep m ρ c main_arg2 (by decide) (by decide) (by decide)),
    (h c _ (mem_uc main_arg3 (by decide))).trans (W3_keep m ρ c main_arg3 (by decide) (by decide) (by decide)),
    (h c _ (mem_uc main_arg4 (by decide))).trans (W3_keep m ρ c main_arg4 (by decide) (by decide) (by decide)),
    (h c _ (mem_uc main_arg5 (by decide))).trans (W3_keep m ρ c main_arg5 (by decide) (by decide) (by decide)),
    (h c _ (mem_uc main_arg6 (by decide))).trans (W3_keep m ρ c main_arg6 (by decide) (by decide) (by decide)),
    (h c _ (mem_uc main_arg7 (by decide))).trans (W3_keep m ρ c main_arg7 (by decide) (by decide) (by decide)),
    (h c _ (mem_uc main_arg8 (by decide))).trans (W3_keep m ρ c main_arg8 (by decide) (by decide) (by decide)),
    (h c _ (mem_uc main_arg9 (by decide))).trans (W3_keep m ρ c main_arg9 (by decide) (by decide) (by decide)),
    (h c _ (mem_uc main_arg10 (by decide))).trans (W3_keep m ρ c main_arg10 (by decide) (by decide) (by decide)),
    (h c _ (mem_uc main_arg11 (by decide))).trans (W3_keep m ρ c main_arg11 (by decide) (by decide) (by decide))⟩) (run_main m ρ)

/-- THE RUN WITH ITS RESULTS NAMED: the logits array at what the write-backs left, the loss buffer at the loss of
    that array, the argument arrays as launched. -/
theorem run_values : θ_run defs (onTc (τ := τ) (main (F := F))) ⟨m, fun _ => 0, ρ⟩ (fun r => ∀ c : Dev nD,
      r.2.mem ((c.tc : Thread nD τ).loc main_v1) = (dat (V1 m ρ) c).arrAt 10 cfg0.N
      ∧ r.2.mem ((c.tc : Thread nD τ).loc main_v15)
          = lossOf ((dat (V1 m ρ) c).arrAt 10 cfg0.N) (m ((c : Thread nD τ).loc main_arg1)) (m ((c : Thread nD τ).loc main_arg2))
              (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_v1 (by decide))).trans (W3_v1 m ρ c),
    (h c _ (mem_uc main_v15 (by decide))).trans (W3_v15 m ρ c),
    (h c _ (mem_uc main_arg0 (by decide))).trans (W3_keep m ρ c main_arg0 (by decide) (by decide) (by decide)),
    (h c _ (mem_uc main_arg1 (by decide))).trans (W3_keep m ρ c main_arg1 (by decide) (by decide) (by decide)),
    (h c _ (mem_uc main_arg2 (by decide))).trans (W3_keep m ρ c main_arg2 (by decide) (by decide) (by decide)),
    (h c _ (mem_uc main_arg3 (by decide))).trans (W3_keep m ρ c main_arg3 (by decide) (by decide) (by decide)),
    (h c _ (mem_uc main_arg4 (by decide))).trans (W3_keep m ρ c main_arg4 (by decide) (by decide) (by decide)),
    (h c _ (mem_uc main_arg5 (by decide))).trans (W3_keep m ρ c main_arg5 (by decide) (by decide) (by decide)),
    (h c _ (mem_uc main_arg6 (by decide))).trans (W3_keep m ρ c main_arg6 (by decide) (by decide) (by decide)),
    (h c _ (mem_uc main_arg7 (by decide))).trans (W3_keep m ρ c main_arg7 (by decide) (by decide) (by decide)),
    (h c _ (mem_uc main_arg8 (by decide))).trans (W3_keep m ρ c main_arg8 (by decide) (by decide) (by decide)),
    (h c _ (mem_uc main_arg9 (by decide))).trans (W3_keep m ρ c main_arg9 (by decide) (by decide) (by decide)),
    (h c _ (mem_uc main_arg10 (by decide))).trans (W3_keep m ρ c main_arg10 (by decide) (by decide) (by decide)),
    (h c _ (mem_uc main_arg11 (by decide))).trans (W3_keep m ρ c main_arg11 (by decide) (by decide) (by decide))⟩) (run_main m ρ)

end Cert.KernelIdeal.Hand

end
-- ==== Proof.SpecHeadEdge.lean ====
/-
  The mathematics both programs compute, stated once over the extended reals and over literal shapes.

  A pair of points (a, b) of one batch entry has the feature vector x k = p k a + p k b (k < 256). The head is a
  cascade of four dense layers, 256 → 128 → 64 → 32 → 1: a layer sends x to the vector o ↦ (∑ k, x k · W (k, o)) + b o,
  the first three followed by max (·, 0), the last one left as the raw logit. `mlp` is that cascade on one feature
  vector; `predAt` reads it off the point array (laid out [batch, feature, position]) at an output index
  (batch, a, b); `blockAt` reads it off two blocks of the transposed point array ([1, position, feature]), the
  first supplying a, the second supplying b.
-/
import Idealize.ShloMosaic.PureOps.Ideal
import Idealize.ShloMosaic.Lib.ValueIdx

noncomputable section

open scoped BigOperators

namespace Cert.Spec

open Idealize.ShloMosaic Idealize.ShloMosaic.ValueIdx

/-- The word of +0.0, the second operand of every max (·, 0) of the cascade. -/
abbrev zeroW : EReal := Ideal.ofBits .f32 0x00000000#32

/-- The first layer's pre-activation at output feature `o`. -/
def lin0 (x : Fin 256 → EReal) (W0 : (⟨2, ![256, 128]⟩ : Shape).Idx → EReal) (b0 : (⟨1, ![128]⟩ : Shape).Idx → EReal)
    (o : Fin 128) : EReal := (∑ k : Fin 256, x k * W0 (ix2 k o)) + b0 (ix1 o)

/-- The second layer's pre-activation. -/
def lin1 (x : Fin 128 → EReal) (W1 : (⟨2, ![128, 64]⟩ : Shape).Idx → EReal) (b1 : (⟨1, ![64]⟩ : Shape).Idx → EReal)
    (o : Fin 64) : EReal := (∑ k : Fin 128, x k * W1 (ix2 k o)) + b1 (ix1 o)

/-- The third layer's pre-activation. -/
def lin2 (x : Fin 64 → EReal) (W2 : (⟨2, ![64, 32]⟩ : Shape).Idx → EReal) (b2 : (⟨1, ![32]⟩ : Shape).Idx → EReal)
    (o : Fin 32) : EReal := (∑ k : Fin 64, x k * W2 (ix2 k o)) + b2 (ix1 o)

/-- The last layer, one output: the logit. -/
def lin3 (x : Fin 32 → EReal) (W3 : (⟨2, ![32, 1]⟩ : Shape).Idx → EReal) (b3 : (⟨1, ![1]⟩ : Shape).Idx → EReal) : EReal :=
  (∑ k : Fin 32, x k * W3 (ix2 k (0 : Fin 1))) + b3 (ix1 (0 : Fin 1))

/-- The cascade on one feature vector. -/
def mlp (x : Fin 256 → EReal)
    (W0 : (⟨2, ![256, 128]⟩ : Shape).Idx → EReal) (b0 : (⟨1, ![128]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 1]⟩ : Shape).Idx → EReal) (b3 : (⟨1, ![1]⟩ : Shape).Idx → EReal) : EReal :=
  lin3 (fun k3 => max (lin2 (fun k2 => max (lin1 (fun k1 => max (lin0 x W0 b0 k1) zeroW) W1 b1 k2) zeroW) W2 b2 k3) zeroW) W3 b3

/-- The logit of the pair (a, b) of batch entry n, from the point array [2, 256, 512]. -/
def predAt (pts : (⟨3, ![2, 256, 512]⟩ : Shape).Idx → EReal)
    (W0 : (⟨2, ![256, 128]⟩ : Shape).Idx → EReal) (b0 : (⟨1, ![128]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 1]⟩ : Shape).Idx → EReal) (b3 : (⟨1, ![1]⟩ : Shape).Idx → EReal)
    (n : Fin 2) (a b : Fin 512) : EReal :=
  mlp (fun k => pts (ix3 n k a) + pts (ix3 n k b)) W0 b0 W1 b1 W2 b2 W3 b3

/-- The logit of row r of a first block and row s of a second block, both of shape [1, 128, 256]
    (position by feature). -/
def blockAt (u v : (⟨3, ![1, 128, 256]⟩ : Shape).Idx → EReal)
    (W0 : (⟨2, ![256, 128]⟩ : Shape).Idx → EReal) (b0 : (⟨1, ![128]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 1]⟩ : Shape).Idx → EReal) (b3 : (⟨1, ![1]⟩ : Shape).Idx → EReal)
    (r s : Fin 128) : EReal :=
  mlp (fun k => u (ix3 (0 : Fin 1) r k) + v (ix3 (0 : Fin 1) s k)) W0 b0 W1 b1 W2 b2 W3 b3

end Cert.Spec

end
-- ==== Proof.BlocksToArray.lean ====
/-
  From blocks to the array, for the output of the pairwise head.

  The grid is 2 × 4 × 4. At the point with block coordinates (n, i, j) the pipeline hands the body block (n, i) of
  the transposed point array (128 positions by 256 features) twice over — once for the rows i, once for the rows j —
  and the weight matrices and bias vectors whole, and writes the body's [1, 128, 128] block of logits back as block
  (n, i, j) of the [2, 512, 512] output. Element (0, r, s) of that block sits at (n, 128 i + r, 128 j + s) of the
  output, and the two point blocks' rows r and s are rows 128 i + r and 128 j + s of the transposed point array. So,
  given that the body's block at (0, r, s) is the cascade on the sum of those two rows, every point writes back its
  block of ONE function of the arrays: the cascade on the sum of rows a and b of batch entry n, at (n, a, b). The
  sixteen blocks of each batch entry tile its 512 × 512 square, so the output array ends holding that function.
-/
import proofs.«151052_j16801912062758_1_alg».proof.Proof.DataKI
import proofs.«151052_j16801912062758_1_alg».proof.Proof.SpecHeadEdge
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The zero offsets of the whole-buffer rectangles -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-! ## The printed index maps, decided once over the 32 points -/

/-- Both point windows follow the output window: the first on the output's row-block axis, the second on its
    column-block axis, both on the batch axis, and neither moves along the features. The output's block indices stay
    below 2, 4 and 4. -/
theorem index_facts : ∀ t : Fin cfg0.N,
    win0_0.index t (0 : Fin 3) = win0_10.index t (0 : Fin 3) ∧ win0_0.index t (1 : Fin 3) = win0_10.index t (1 : Fin 3)
    ∧ win0_0.index t (2 : Fin 3) = 0
    ∧ win0_1.index t (0 : Fin 3) = win0_10.index t (0 : Fin 3) ∧ win0_1.index t (1 : Fin 3) = win0_10.index t (2 : Fin 3)
    ∧ win0_1.index t (2 : Fin 3) = 0
    ∧ win0_10.index t (0 : Fin 3) ≤ 1 ∧ win0_10.index t (1 : Fin 3) ≤ 3 ∧ win0_10.index t (2 : Fin 3) ≤ 3 :=
  (by decide +kernel : ∀ t : Fin grid0.N, _)

/-- The weight and bias windows are their whole arrays at every point: block index 0 on every axis. -/
theorem whole_facts : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0 :=
  (by decide +kernel : ∀ t : Fin grid0.N, _)

/-- Every block (n, i, j) of the output is some point's. -/
theorem index_onto : ∀ (q0 : Fin 2) (q1 q2 : Fin 4), ∃ t : Fin cfg0.N, win0_10.index t = ![q0.val, q1.val, q2.val] :=
  (by decide +kernel : ∀ (q0 : Fin 2) (q1 q2 : Fin 4), ∃ t : Fin grid0.N, win0_10.index t = ![q0.val, q1.val, q2.val])

variable {F : FTy → Type} [FloatOps F]
variable (V : (c : Dev nD) → (b : Ref sig .tc) → Buf (Elt F) ((c : Thread nD τ).loc b))

/-! ## The input blocks at a point, read off their arrays -/

/-- Row r of the first point block is the row of the transposed point array the output block's rows start at, plus r:
    stated at any index j of the array with those coordinates. -/
theorem rows_at (c : Dev nD) (t : Fin cfg0.N) (r : Fin 128) (k : Fin 256) (j : S2x512x256.Idx)
    (h0 : (j 0).val = win0_10.index t (0 : Fin 3)) (h1 : (j 1).val = win0_10.index t (1 : Fin 3) * 128 + r.val)
    (h2 : (j 2).val = k.val) :
    (iblk V c 0 t : Vec F S1x128x256 .f32) (ix3 (0 : Fin 1) r k) = (V c main_v0 : S2x512x256.Idx → Elt F .f32) j := by
  obtain ⟨e0, e1, e2, -⟩ := index_facts t
  unfold iblk
  show V c main_v0 (((cfg0.win 0).blk t).view.emb (ix3 (0 : Fin 1) r k)) = V c main_v0 j
  congr 1
  funext a
  apply Fin.ext
  match a with
  | ⟨0, _⟩ => show win0_0.index t (0 : Fin 3) * 1 + 1 * 0 = (j 0).val; omega
  | ⟨1, _⟩ => show win0_0.index t (1 : Fin 3) * 128 + 1 * r.val = (j 1).val; omega
  | ⟨2, _⟩ => show win0_0.index t (2 : Fin 3) * 256 + 1 * k.val = (j 2).val; omega

/-- Row s of the second point block: the same array, at the row the output block's columns start at, plus s. -/
theorem cols_at (c : Dev nD) (t : Fin cfg0.N) (s : Fin 128) (k : Fin 256) (j : S2x512x256.Idx)
    (h0 : (j 0).val = win0_10.index t (0 : Fin 3)) (h1 : (j 1).val = win0_10.index t (2 : Fin 3) * 128 + s.val)
    (h2 : (j 2).val = k.val) :
    (iblk V c 1 t : Vec F S1x128x256 .f32) (ix3 (0 : Fin 1) s k) = (V c main_v0 : S2x512x256.Idx → Elt F .f32) j := by
  obtain ⟨-, -, -, e0, e1, e2, -⟩ := index_facts t
  unfold iblk
  show V c main_v0 (((cfg0.win 1).blk t).view.emb (ix3 (0 : Fin 1) s k)) = V c main_v0 j
  congr 1
  funext a
  apply Fin.ext
  match a with
  | ⟨0, _⟩ => show win0_1.index t (0 : Fin 3) * 1 + 1 * 0 = (j 0).val; omega
  | ⟨1, _⟩ => show win0_1.index t (1 : Fin 3) * 128 + 1 * s.val = (j 1).val; omega
  | ⟨2, _⟩ => show win0_1.index t (2 : Fin 3) * 256 + 1 * k.val = (j 2).val; omega

/-! The weight and bias blocks are the arrays. -/

theorem whole_2 (c : Dev nD) (t : Fin cfg0.N) : (iblk V c 2 t : Vec F S256x128 .f32) = V c main_arg4 := by
  obtain ⟨e20, e21, e30, e40, e41, e50, e60, e61, e70, e80, e81, e90⟩ := whole_facts t
  funext x
  unfold iblk
  show V c main_arg4 (((cfg0.win 2).blk t).view.emb x) = V c main_arg4 x
  congr 1
  funext a
  apply Fin.ext
  match a with
    | ⟨0, _⟩ => show win0_2.index t (0 : Fin 2) * 256 + 1 * (x 0).val = (x 0).val; omega
    | ⟨1, _⟩ => show win0_2.index t (1 : Fin 2) * 128 + 1 * (x 1).val = (x 1).val; omega

theorem whole_3 (c : Dev nD) (t : Fin cfg0.N) : (iblk V c 3 t : Vec F S128 .f32) = V c main_arg5 := by
  obtain ⟨e20, e21, e30, e40, e41, e50, e60, e61, e70, e80, e81, e90⟩ := whole_facts t
  funext x
  unfold iblk
  show V c main_arg5 (((cfg0.win 3).blk t).view.emb x) = V c main_arg5 x
  congr 1
  funext a
  apply Fin.ext
  match a with
    | ⟨0, _⟩ => show win0_3.index t (0 : Fin 1) * 128 + 1 * (x 0).val = (x 0).val; omega

theorem whole_4 (c : Dev nD) (t : Fin cfg0.N) : (iblk V c 4 t : Vec F S128x64 .f32) = V c main_arg6 := by
  obtain ⟨e20, e21, e30, e40, e41, e50, e60, e61, e70, e80, e81, e90⟩ := whole_facts t
  funext x
  unfold iblk
  show V c main_arg6 (((cfg0.win 4).blk t).view.emb x) = V c main_arg6 x
  congr 1
  funext a
  apply Fin.ext
  match a with
    | ⟨0, _⟩ => show win0_4.index t (0 : Fin 2) * 128 + 1 * (x 0).val = (x 0).val; omega
    | ⟨1, _⟩ => show win0_4.index t (1 : Fin 2) * 64 + 1 * (x 1).val = (x 1).val; omega

theorem whole_5 (c : Dev nD) (t : Fin cfg0.N) : (iblk V c 5 t : Vec F S64 .f32) = V c main_arg7 := by
  obtain ⟨e20, e21, e30, e40, e41, e50, e60, e61, e70, e80, e81, e90⟩ := whole_facts t
  funext x
  unfold iblk
  show V c main_arg7 (((cfg0.win 5).blk t).view.emb x) = V c main_arg7 x
  congr 1
  funext a
  apply Fin.ext
  match a with
    | ⟨0, _⟩ => show win0_5.index t (0 : Fin 1) * 64 + 1 * (x 0).val = (x 0).val; omega

theorem whole_6 (c : Dev nD) (t : Fin cfg0.N) : (iblk V c 6 t : Vec F S64x32 .f32) = V c main_arg8 := by
  obtain ⟨e20, e21, e30, e40, e41, e50, e60, e61, e70, e80, e81, e90⟩ := whole_facts t
  funext x
  unfold iblk
  show V c main_arg8 (((cfg0.win 6).blk t).view.emb x) = V c main_arg8 x
  congr 1
  funext a
  apply Fin.ext
  match a with
    | ⟨0, _⟩ => show win0_6.index t (0 : Fin 2) * 64 + 1 * (x 0).val = (x 0).val; omega
    | ⟨1, _⟩ => show win0_6.index t (1 : Fin 2) * 32 + 1 * (x 1).val = (x 1).val; omega

theorem whole_7 (c : Dev nD) (t : Fin cfg0.N) : (iblk V c 7 t : Vec F S32 .f32) = V c main_arg9 := by
  obtain ⟨e20, e21, e30, e40, e41, e50, e60, e61, e70, e80, e81, e90⟩ := whole_facts t
  funext x
  unfold iblk
  show V c main_arg9 (((cfg0.win 7).blk t).view.emb x) = V c main_arg9 x
  congr 1
  funext a
  apply Fin.ext
  match a with
    | ⟨0, _⟩ => show win0_7.index t (0 : Fin 1) * 32 + 1 * (x 0).val = (x 0).val; omega

theorem whole_8 (c : Dev nD) (t : Fin cfg0.N) : (iblk V c 8 t : Vec F S32x1 .f32) = V c main_arg10 := by
  obtain ⟨e20, e21, e30, e40, e41, e50, e60, e61, e70, e80, e81, e90⟩ := whole_facts t
  funext x
  unfold iblk
  show V c main_arg10 (((cfg0.win 8).blk t).view.emb x) = V c main_arg10 x
  congr 1
  funext a
  apply Fin.ext
  match a with
    | ⟨0, _⟩ => show win0_8.index t (0 : Fin 2) * 32 + 1 * (x 0).val = (x 0).val; omega
    | ⟨1, _⟩ => show win0_8.index t (1 : Fin 2) * 1 + 1 * (x 1).val = (x 1).val; omega

theorem whole_9 (c : Dev nD) (t : Fin cfg0.N) : (iblk V c 9 t : Vec F S1 .f32) = V c main_arg11 := by
  obtain ⟨e20, e21, e30, e40, e41, e50, e60, e61, e70, e80, e81, e90⟩ := whole_facts t
  funext x
  unfold iblk
  show V c main_arg11 (((cfg0.win 9).blk t).view.emb x) = V c main_arg11 x
  congr 1
  funext a
  apply Fin.ext
  match a with
    | ⟨0, _⟩ => show win0_9.index t (0 : Fin 1) * 1 + 1 * (x 0).val = (x 0).val; omega

/-- An index of the output is in point t's block iff each coordinate is in the block's range on its axis. -/
theorem mem_block (t : Fin cfg0.N) (i : S2x512x512.Idx) :
    i ∈ ((cfg0.win 10).blk t).view.set ↔ ∀ a : Fin 3, win0_10.index t a * S1x128x128.size a ≤ (i a).val
      ∧ (i a).val < win0_10.index t a * S1x128x128.size a + S1x128x128.size a := by
  show i ∈ ((View.whole main_v1).slice (win0_10.rect t)).set ↔ _
  rw [View.set_slice_whole, Rect.mem_set_unit]
  exact Iff.rfl

/-- The blocks tile the output: (n, a, b) lies in the block (n, a / 128, b / 128), which some point writes back. -/
theorem covered (i : S2x512x512.Idx) :
    ∃ t : Fin cfg0.N, (cfg0.win 10).flush t = true ∧ i ∈ ((cfg0.win 10).blk t).view.set := by
  have hi0 : (i 0).val < 2 := (i 0).isLt
  have hi1 : (i 1).val < 512 := (i 1).isLt
  have hi2 : (i 2).val < 512 := (i 2).isLt
  obtain ⟨t, ht⟩ := index_onto ⟨(i 0).val, hi0⟩ ⟨(i 1).val / 128, by omega⟩ ⟨(i 2).val / 128, by omega⟩
  have q0 : win0_10.index t (0 : Fin 3) = (i 0).val := congrFun ht 0
  have q1 : win0_10.index t (1 : Fin 3) = (i 1).val / 128 := congrFun ht 1
  have q2 : win0_10.index t (2 : Fin 3) = (i 2).val / 128 := congrFun ht 2
  refine ⟨t, flush0_10 t, ?_⟩
  rw [mem_block]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 128 ≤ (i 1).val ∧ (i 1).val < win0_10.index t (1 : Fin 3) * 128 + 128; omega
  | ⟨2, _⟩ => show win0_10.index t (2 : Fin 3) * 128 ≤ (i 2).val ∧ (i 2).val < win0_10.index t (2 : Fin 3) * 128 + 128; omega

/-! ## The array the output ends holding, at the ideal instance -/

/-- The cascade depends on its nine arguments only. -/
theorem mlp_congr {x x' : Fin 256 → EReal} {W0 W0' : S256x128.Idx → EReal} {b0 b0' : S128.Idx → EReal}
    {W1 W1' : S128x64.Idx → EReal} {b1 b1' : S64.Idx → EReal} {W2 W2' : S64x32.Idx → EReal} {b2 b2' : S32.Idx → EReal}
    {W3 W3' : S32x1.Idx → EReal} {b3 b3' : S1.Idx → EReal}
    (hx : x = x') (h0 : W0 = W0') (h1 : b0 = b0') (h2 : W1 = W1') (h3 : b1 = b1') (h4 : W2 = W2') (h5 : b2 = b2')
    (h6 : W3 = W3') (h7 : b3 = b3') :
    Cert.Spec.mlp x W0 b0 W1 b1 W2 b2 W3 b3 = Cert.Spec.mlp x' W0' b0' W1' b1' W2' b2' W3' b3' := by
  subst hx h0 h1 h2 h3 h4 h5 h6 h7; rfl

/-- The cascade on the sum of rows a and b of batch entry n of a [2, 512, 256] array of points (position by feature),
    at (n, a, b). -/
def pairLogits (p : S2x512x256.Idx → EReal) (W0 : S256x128.Idx → EReal) (b0 : S128.Idx → EReal) (W1 : S128x64.Idx → EReal)
    (b1 : S64.Idx → EReal) (W2 : S64x32.Idx → EReal) (b2 : S32.Idx → EReal) (W3 : S32x1.Idx → EReal) (b3 : S1.Idx → EReal) :
    S2x512x512.Idx → EReal := fun idx =>
  Cert.Spec.mlp (fun k => p (ix3 (idx 0) (idx 1) k) + p (ix3 (idx 0) (idx 2) k)) W0 b0 W1 b1 W2 b2 W3 b3

theorem pairLogits_apply (p : S2x512x256.Idx → EReal) (W0 : S256x128.Idx → EReal) (b0 : S128.Idx → EReal) (W1 : S128x64.Idx → EReal)
    (b1 : S64.Idx → EReal) (W2 : S64x32.Idx → EReal) (b2 : S32.Idx → EReal) (W3 : S32x1.Idx → EReal) (b3 : S1.Idx → EReal)
    (n : Fin 2) (a b : Fin 512) :
    pairLogits p W0 b0 W1 b1 W2 b2 W3 b3 (ix3 n a b)
      = Cert.Spec.mlp (fun k => p (ix3 n a k) + p (ix3 n b k)) W0 b0 W1 b1 W2 b2 W3 b3 := rfl

section AtIdeal

variable (W : (c : Dev nD) → (b : Ref sig .tc) → Buf (Elt Ideal) ((c : Thread nD τ).loc b))

/-- The stored block at (0, r, s), from the ten buffers' contents: the whole-buffer loads read the contents. -/
theorem logits_at (hst : ∀ (v0 v3 : Vec Ideal S1x128x256 .f32) (v12 : Vec Ideal S256x128 .f32) (v15 : Vec Ideal S128 .f32)
      (v22 : Vec Ideal S128x64 .f32) (v25 : Vec Ideal S64 .f32) (v32 : Vec Ideal S64x32 .f32) (v35 : Vec Ideal S32 .f32)
      (v42 : Vec Ideal S32x1 .f32) (v45 : Vec Ideal S1 .f32) (r s : Fin 128),
      Gen.k0_pay1 (F := Ideal) (Gen.k0_pay2 v0 v3 v12 v15 v22 v25 v32) (Gen.k0_pay3 v35) v42 v45 (ValueIdx.ix3 (0 : Fin 1) r s)
        = Cert.Spec.blockAt v0 v3 v12 v15 v22 v25 v32 v35 v42 v45 r s)
    (x0 x1 : Vec Ideal S1x128x256 .f32) (x2 : Vec Ideal S256x128 .f32) (x3 : Vec Ideal S128 .f32) (x4 : Vec Ideal S128x64 .f32)
    (x5 : Vec Ideal S64 .f32) (x6 : Vec Ideal S64x32 .f32) (x7 : Vec Ideal S32 .f32) (x8 : Vec Ideal S32x1 .f32) (x9 : Vec Ideal S1 .f32)
    (r s : Fin 128) :
    logits (F := Ideal) x0 x1 x2 x3 x4 x5 x6 x7 x8 x9 (ix3 (0 : Fin 1) r s) = Cert.Spec.blockAt x0 x1 x2 x3 x4 x5 x6 x7 x8 x9 r s := by
  unfold logits
  simp only [View.ld_unit_zero (S := S1x128x256) zero3, View.ld_unit_zero (S := S256x128) zero2, View.ld_unit_zero (S := S128) zero1,
    View.ld_unit_zero (S := S128x64) zero2, View.ld_unit_zero (S := S64) zero1, View.ld_unit_zero (S := S64x32) zero2,
    View.ld_unit_zero (S := S32) zero1, View.ld_unit_zero (S := S32x1) zero2, View.ld_unit_zero (S := S1) zero1]
  exact hst x0 x1 x2 x3 x4 x5 x6 x7 x8 x9 r s

/-- WHAT POINT t WRITES BACK is block t of `pairLogits` of the arrays as the region finds them. -/
theorem flushed_eq (hst : ∀ (v0 v3 : Vec Ideal S1x128x256 .f32) (v12 : Vec Ideal S256x128 .f32) (v15 : Vec Ideal S128 .f32)
      (v22 : Vec Ideal S128x64 .f32) (v25 : Vec Ideal S64 .f32) (v32 : Vec Ideal S64x32 .f32) (v35 : Vec Ideal S32 .f32)
      (v42 : Vec Ideal S32x1 .f32) (v45 : Vec Ideal S1 .f32) (r s : Fin 128),
      Gen.k0_pay1 (F := Ideal) (Gen.k0_pay2 v0 v3 v12 v15 v22 v25 v32) (Gen.k0_pay3 v35) v42 v45 (ValueIdx.ix3 (0 : Fin 1) r s)
        = Cert.Spec.blockAt v0 v3 v12 v15 v22 v25 v32 v35 v42 v45 r s)
    (c : Dev nD) (t : Fin cfg0.N) :
    (dat (F := Ideal) W c).flushed 10 t = ((cfg0.win 10).blk t).view.read (Elt Ideal)
      (pairLogits (W c main_v0) (W c main_arg4) (W c main_arg5) (W c main_arg6) (W c main_arg7) (W c main_arg8) (W c main_arg9)
        (W c main_arg10) (W c main_arg11)) := by
  show (cfg0.win 10).cut (grid0.coords t) ((dat W c).after 10 t) = _
  rw [after_10]
  unfold outBlock
  rw [View.canon_unit_zero zero3]
  funext y
  have hy0 : (y 0).val < 1 := (y 0).isLt
  have hy : (cfg0.win 10).xinj (grid0.coords t) y
      = ix3 (0 : Fin 1) (⟨(y 1).val, (y 1).isLt⟩ : Fin 128) (⟨(y 2).val, (y 2).isLt⟩ : Fin 128) :=
    funext fun a => Fin.ext (by
      match a with
      | ⟨0, _⟩ => show (y 0).val = 0; omega
      | ⟨1, _⟩ => rfl
      | ⟨2, _⟩ => rfl)
  refine (congrArg (logits (F := Ideal) (iblk W c 0 t) (iblk W c 1 t) (iblk W c 2 t) (iblk W c 3 t) (iblk W c 4 t) (iblk W c 5 t)
    (iblk W c 6 t) (iblk W c 7 t) (iblk W c 8 t) (iblk W c 9 t)) hy).trans ?_
  rw [logits_at hst]
  show _ = pairLogits (W c main_v0) (W c main_arg4) (W c main_arg5) (W c main_arg6) (W c main_arg7) (W c main_arg8) (W c main_arg9)
        (W c main_arg10) (W c main_arg11) (((cfg0.win 10).blk t).view.emb y)
  unfold Cert.Spec.blockAt pairLogits
  have e0 : ((((cfg0.win 10).blk t).view.emb y) 0).val = win0_10.index t (0 : Fin 3) := by
    show win0_10.index t (0 : Fin 3) * 1 + 1 * (y 0).val = win0_10.index t (0 : Fin 3); omega
  have e1 : ((((cfg0.win 10).blk t).view.emb y) 1).val = win0_10.index t (1 : Fin 3) * 128 + (y 1).val := by
    show win0_10.index t (1 : Fin 3) * 128 + 1 * (y 1).val = win0_10.index t (1 : Fin 3) * 128 + (y 1).val; omega
  have e2 : ((((cfg0.win 10).blk t).view.emb y) 2).val = win0_10.index t (2 : Fin 3) * 128 + (y 2).val := by
    show win0_10.index t (2 : Fin 3) * 128 + 1 * (y 2).val = win0_10.index t (2 : Fin 3) * 128 + (y 2).val; omega
  exact mlp_congr
    (funext fun k => by
      rw [rows_at W c t (⟨(y 1).val, (y 1).isLt⟩ : Fin 128) k (ix3 ((((cfg0.win 10).blk t).view.emb y) 0) ((((cfg0.win 10).blk t).view.emb y) 1) k) e0 e1 rfl,
        cols_at W c t (⟨(y 2).val, (y 2).isLt⟩ : Fin 128) k (ix3 ((((cfg0.win 10).blk t).view.emb y) 0) ((((cfg0.win 10).blk t).view.emb y) 2) k) e0 e2 rfl])
    (whole_2 W c t) (whole_3 W c t) (whole_4 W c t) (whole_5 W c t) (whole_6 W c t) (whole_7 W c t) (whole_8 W c t) (whole_9 W c t)

/-- THE OUTPUT ARRAY after the region: the cascade on the sum of rows a and b of batch entry n of the transposed
    point array, at every (n, a, b). -/
theorem final_logits (c : Dev nD)
    (hst : ∀ (v0 v3 : Vec Ideal S1x128x256 .f32) (v12 : Vec Ideal S256x128 .f32) (v15 : Vec Ideal S128 .f32)
      (v22 : Vec Ideal S128x64 .f32) (v25 : Vec Ideal S64 .f32) (v32 : Vec Ideal S64x32 .f32) (v35 : Vec Ideal S32 .f32)
      (v42 : Vec Ideal S32x1 .f32) (v45 : Vec Ideal S1 .f32) (r s : Fin 128),
      Gen.k0_pay1 (F := Ideal) (Gen.k0_pay2 v0 v3 v12 v15 v22 v25 v32) (Gen.k0_pay3 v35) v42 v45 (ValueIdx.ix3 (0 : Fin 1) r s)
        = Cert.Spec.blockAt v0 v3 v12 v15 v22 v25 v32 v35 v42 v45 r s) :
    (dat (F := Ideal) W c).arrAt 10 cfg0.N
      = pairLogits (W c main_v0) (W c main_arg4) (W c main_arg5) (W c main_arg6) (W c main_arg7) (W c main_arg8) (W c main_arg9)
        (W c main_arg10) (W c main_arg11) :=
  (dat (F := Ideal) W c).arrAt_eq_of_cover 10 _ (fun t _ => flushed_eq W hst c t) covered

end AtIdeal

end Cert.KernelIdeal.Hand

end
-- ==== Proof.BlockLogit.lean ====
/-
  The value the kernel body stores, read at one entry, is the head's logit of a pair of rows.

  The body forms, for rows r of a first block and s of a second block (both [1, 128, 256], position by feature),
  the feature vector x k = u (0, r, k) + v (0, s, k), laid out as row r * 128 + s of a [16384, 256] array; it then
  applies the four dense layers 256 → 128 → 64 → 32 → 1 row by row (matrix product into a zero accumulator, then the
  bias, then max against the word of +0.0 for the first three), and views the [16384, 1] column of logits as
  [1, 128, 128]. Over the extended reals the format changes are the identity, so each layer at a row is literally
  the specification's layer on that row, and the stored value at (0, r, s) is the specification's blockAt … r s.

  The file has three parts: the layout operations the body uses, read at an index given by coordinates; a matrix
  product M×K by K×N into a zero accumulator read at (row, column), and a dense layer built from it; the body cut
  into its stages, each stage read at a row, and the stages chained.
-/
import proofs.«151052_j16801912062758_1_alg».proof.Proof.SpecHeadEdge
import proofs.«151052_j16801912062758_1_alg».proof.Proof.Gen.KernelIdeal.Skeleton
import Idealize.ShloMosaic.PureOps.Ideal.Laws
import Idealize.ShloMosaic.Lib.ValueLayout

noncomputable section

open scoped BigOperators

namespace Cert.BlockLogit

open Idealize.ShloMosaic Idealize.ShloMosaic.ValueIdx Cert.KernelIdeal Cert.KernelIdeal.Gen

/-! ## Layout operations at an index given by coordinates -/

section Layout
variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An [a, b, c] array cast to [m, c], m = a * b, reads, at (p, k) with p = i * b + j, the operand at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (p : Fin m)
    (hp : p.val = i.val * b + j.val) :
    shapeCast ⟨2, ![m, c]⟩ x h (ix2 p k) = x (ix3 i j k) :=
  shapeCast_apply x h _ _ (by
    rw [Shape.rowMajor_val_three, Shape.rowMajor_val_two]
    show (i.val * b + j.val) * c + k.val = p.val * c + k.val
    rw [hp])

/-- An [m, 1] column cast to [a, b], m = a * b, reads, at (i, j), the operand at (p, 0) with p = i * b + j. -/
theorem shapeCast_m1_ab_apply {a b m : ℕ} (x : (⟨2, ![m, 1]⟩ : Shape).Idx → α)
    (h : (⟨2, ![m, 1]⟩ : Shape).ShapeCasts ⟨2, ![a, b]⟩) (i : Fin a) (j : Fin b) (p : Fin m)
    (hp : p.val = i.val * b + j.val) :
    shapeCast ⟨2, ![a, b]⟩ x h (ix2 i j) = x (ix2 p (0 : Fin 1)) :=
  shapeCast_apply x h _ _ (by
    rw [Shape.rowMajor_val_two, Shape.rowMajor_val_two]
    show p.val * 1 + 0 = i.val * b + j.val
    rw [hp, Nat.mul_one, Nat.add_zero])

/-- An [a, 1, c] array broadcast to [a, b, c] reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## A matrix product into a zero accumulator, and a dense layer, at (row, column) -/

theorem plain_lhs0 (M K N : ℕ) (j : (⟨2, ![M, N]⟩ : Shape).Idx) (q : (DotDims.plain M K N).contr.Idx) :
    ((DotDims.plain M K N).lhsIdx j q 0).val = (j 0).val := rfl

theorem plain_rhs1 (M K N : ℕ) (j : (⟨2, ![M, N]⟩ : Shape).Idx) (q : (DotDims.plain M K N).contr.Idx) :
    ((DotDims.plain M K N).rhsIdx j q 1).val = (j 1).val := rfl

/-- The product of an M×K by a K×N matrix into a zero accumulator, at (r, o), is the sum over k of the left
    operand at (r, k) times the right operand at (k, o). -/
theorem plain_matmul_apply (M K N : ℕ) {φ₁ φ₂ : FTy} (lhs : FVec Ideal ⟨2, ![M, K]⟩ φ₁)
    (rhs : FVec Ideal ⟨2, ![K, N]⟩ φ₂) (r : Fin M) (o : Fin N) :
    FloatOps.matmul (DotDims.plain M K N) none lhs rhs (constant (F := Ideal) ⟨2, ![M, N]⟩ .f32 0x00000000#32) (ix2 r o)
      = ∑ k : Fin K, lhs (ix2 r k) * rhs (ix2 k o) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r o) ((contrEquiv1 (DotDims.plain M K N) K rfl rfl).symm k) = ix2 r k :=
    funext fun a => Fin.ext (by
      match a with
      | ⟨0, _⟩ => exact plain_lhs0 M K N _ _
      | ⟨1, _⟩ => exact ((DotDims.plain M K N).lhsIdx_val_of_single rfl _ _).trans hk)
  have er : (DotDims.plain M K N).rhsIdx (ix2 r o) ((contrEquiv1 (DotDims.plain M K N) K rfl rfl).symm k) = ix2 k o :=
    funext fun a => Fin.ext (by
      match a with
      | ⟨0, _⟩ => exact ((DotDims.plain M K N).rhsIdx_val_of_single rfl _ _).trans hk
      | ⟨1, _⟩ => exact plain_rhs1 M K N _ _)
  rw [el, er]

/-- A dense layer on the rows of an M×K array: the product with the K×N weights (read through a format change,
    the identity here) into a zero accumulator, plus the bias [N] viewed [1, N] and broadcast over the rows. At
    (r, o) it is (∑ k, x (r, k) * W (k, o)) + b o. -/
theorem dense_apply (M K N : ℕ) {φ : FTy} (d : DotDims ⟨2, ![M, K]⟩ ⟨2, ![K, N]⟩ ⟨2, ![M, N]⟩)
    (hd : d = DotDims.plain M K N) (x : FVec Ideal ⟨2, ![M, K]⟩ φ) (W : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (h2 : (⟨2, ![1, N]⟩ : Shape).Broadcasts ⟨2, ![M, N]⟩)
    (r : Fin M) (o : Fin N) :
    addf (matmul d none x (truncf .bf16 W hlt) (constant (F := Ideal) ⟨2, ![M, N]⟩ .f32 0x00000000#32))
        (broadcastTo ⟨2, ![M, N]⟩ (shapeCast ⟨2, ![1, N]⟩ b h1) h2) (ix2 r o)
      = (∑ k : Fin K, x (ix2 r k) * W (ix2 k o)) + b (ix1 o) := by
  subst hd
  exact congrArg₂ (· + ·) (plain_matmul_apply M K N x (truncf .bf16 W hlt) r o)
    ((broadcastTo_1b_ab_apply _ h2 r o).trans (shapeCast_a_1a_apply b h1 0 o))

/-! ## The body's stages -/

/-- The row of the [16384, ·] arrays that holds the pair (r, s). -/
def row (r s : Fin 128) : Fin 16384 := ⟨r.val * 128 + s.val, by have := r.isLt; have := s.isLt; omega⟩

/-- The feature rows: row r * 128 + s is the sum of row r of the first block and row s of the second. -/
def feat (v0 v3 : Vec Ideal S1x128x256 .f32) : FVec Ideal S16384x256 .bf16 :=
  have v1 : FVec Ideal S128x256 .f32 := shapeCast S128x256 v0 shapeCasts_S1x128x256_S128x256
  have v2 : FVec Ideal S128x256 .bf16 := truncf .bf16 v1 bitsLt_bf16_f32
  have v4 : FVec Ideal S128x256 .f32 := shapeCast S128x256 v3 shapeCasts_S1x128x256_S128x256
  have v5 : FVec Ideal S128x256 .bf16 := truncf .bf16 v4 bitsLt_bf16_f32
  have v6 : FVec Ideal S128x1x256 .bf16 := shapeCast S128x1x256 v2 shapeCasts_S128x256_S128x1x256
  have v7 : FVec Ideal S1x128x256 .bf16 := shapeCast S1x128x256 v5 shapeCasts_S128x256_S1x128x256
  have v8 : FVec Ideal S128x128x256 .bf16 := broadcastTo S128x128x256 v6 broadcasts_S128x1x256_S128x128x256
  have v9 : FVec Ideal S128x128x256 .bf16 := broadcastTo S128x128x256 v7 broadcasts_S1x128x256_S128x128x256
  have v10 : FVec Ideal S128x128x256 .bf16 := addf v8 v9
  shapeCast S16384x256 v10 shapeCasts_S128x128x256_S16384x256

/-- The first layer with its max (·, 0), on every row. -/
def layer0 (x : FVec Ideal S16384x256 .bf16) (v12 : Vec Ideal S256x128 .f32) (v15 : Vec Ideal S128 .f32) :
    FVec Ideal S16384x128 .bf16 :=
  have v13 : FVec Ideal S256x128 .bf16 := truncf .bf16 v12 bitsLt_bf16_f32
  have cst : FVec Ideal S16384x128 .f32 := constant S16384x128 .f32 0x00000000#32
  have v14 : FVec Ideal S16384x128 .f32 := matmul dot_S16384x256_S256x128_S16384x128_1_0_0_1_n_n none x v13 cst
  have v16 : FVec Ideal S1x128 .f32 := shapeCast S1x128 v15 shapeCasts_S128_S1x128
  have v17 : FVec Ideal S16384x128 .f32 := broadcastTo S16384x128 v16 broadcasts_S1x128_S16384x128
  have v18 : FVec Ideal S16384x128 .f32 := addf v14 v17
  have cst_8 : Ideal .f32 := Scalar.ofBits .f32 0x00000000#32
  have v19 : FVec Ideal S16384x128 .f32 := broadcast S16384x128 cst_8
  have v20 : FVec Ideal S16384x128 .f32 := maximumf v18 v19
  truncf .bf16 v20 bitsLt_bf16_f32

/-- The second layer with its max (·, 0), on every row. -/
def layer1 (x : FVec Ideal S16384x128 .bf16) (v22 : Vec Ideal S128x64 .f32) (v25 : Vec Ideal S64 .f32) :
    FVec Ideal S16384x64 .bf16 :=
  have v23 : FVec Ideal S128x64 .bf16 := truncf .bf16 v22 bitsLt_bf16_f32
  have cst_11 : FVec Ideal S16384x64 .f32 := constant S16384x64 .f32 0x00000000#32
  have v24 : FVec Ideal S16384x64 .f32 := matmul dot_S16384x128_S128x64_S16384x64_1_0_0_1_n_n none x v23 cst_11
  have v26 : FVec Ideal S1x64 .f32 := shapeCast S1x64 v25 shapeCasts_S64_S1x64
  have v27 : FVec Ideal S16384x64 .f32 := broadcastTo S16384x64 v26 broadcasts_S1x64_S16384x64
  have v28 : FVec Ideal S16384x64 .f32 := addf v24 v27
  have cst_13 : Ideal .f32 := Scalar.ofBits .f32 0x00000000#32
  have v29 : FVec Ideal S16384x64 .f32 := broadcast S16384x64 cst_13
  have v30 : FVec Ideal S16384x64 .f32 := maximumf v28 v29
  truncf .bf16 v30 bitsLt_bf16_f32

/-- The third layer with its max (·, 0), on every row. -/
def layer2 (x : FVec Ideal S16384x64 .bf16) (v32 : Vec Ideal S64x32 .f32) (v35 : Vec Ideal S32 .f32) :
    FVec Ideal S16384x32 .bf16 :=
  have v33 : FVec Ideal S64x32 .bf16 := truncf .bf16 v32 bitsLt_bf16_f32
  have cst_16 : FVec Ideal S16384x32 .f32 := constant S16384x32 .f32 0x00000000#32
  have v34 : FVec Ideal S16384x32 .f32 := matmul dot_S16384x64_S64x32_S16384x32_1_0_0_1_n_n none x v33 cst_16
  have v36 : FVec Ideal S1x32 .f32 := shapeCast S1x32 v35 shapeCasts_S32_S1x32
  have v37 : FVec Ideal S16384x32 .f32 := broadcastTo S16384x32 v36 broadcasts_S1x32_S16384x32
  have v38 : FVec Ideal S16384x32 .f32 := addf v34 v37
  have cst_18 : Ideal .f32 := Scalar.ofBits .f32 0x00000000#32
  have v39 : FVec Ideal S16384x32 .f32 := broadcast S16384x32 cst_18
  have v40 : FVec Ideal S16384x32 .f32 := maximumf v38 v39
  truncf .bf16 v40 bitsLt_bf16_f32

/-- The last layer, no max: the column of logits. -/
def logits (x : FVec Ideal S16384x32 .bf16) (v42 : Vec Ideal S32x1 .f32) (v45 : Vec Ideal S1 .f32) :
    FVec Ideal S16384x1 .f32 :=
  have v43 : FVec Ideal S32x1 .bf16 := truncf .bf16 v42 bitsLt_bf16_f32
  have cst_21 : FVec Ideal S16384x1 .f32 := constant S16384x1 .f32 0x00000000#32
  have v44 : FVec Ideal S16384x1 .f32 := matmul dot_S16384x32_S32x1_S16384x1_1_0_0_1_n_n none x v43 cst_21
  have v46 : FVec Ideal S1x1 .f32 := shapeCast S1x1 v45 shapeCasts_S1_S1x1
  have v47 : FVec Ideal S16384x1 .f32 := broadcastTo S16384x1 v46 broadcasts_S1x1_S16384x1
  addf v44 v47

/-- The column of logits viewed [128, 128], then [1, 128, 128]. -/
def asBlock (y : FVec Ideal S16384x1 .f32) : FVec Ideal S1x128x128 .f32 :=
  have v49 : FVec Ideal S128x128 .f32 := shapeCast S128x128 y shapeCasts_S16384x1_S128x128
  shapeCast S1x128x128 v49 shapeCasts_S128x128_S1x128x128

/-- The stored value is the stages, composed. -/
theorem stored_eq (v0 v3 : Vec Ideal S1x128x256 .f32) (v12 : Vec Ideal S256x128 .f32) (v15 : Vec Ideal S128 .f32)
    (v22 : Vec Ideal S128x64 .f32) (v25 : Vec Ideal S64 .f32) (v32 : Vec Ideal S64x32 .f32) (v35 : Vec Ideal S32 .f32)
    (v42 : Vec Ideal S32x1 .f32) (v45 : Vec Ideal S1 .f32) :
    k0_pay1 (F := Ideal) (k0_pay2 v0 v3 v12 v15 v22 v25 v32) (k0_pay3 v35) v42 v45
      = asBlock (logits (layer2 (layer1 (layer0 (feat v0 v3) v12 v15) v22 v25) v32 v35) v42 v45) := rfl

/-! ## Each stage at a row -/

theorem feat_apply (v0 v3 : Vec Ideal S1x128x256 .f32) (r s : Fin 128) (k : Fin 256) :
    feat v0 v3 (ix2 (row r s) k) = v0 (ix3 (0 : Fin 1) r k) + v3 (ix3 (0 : Fin 1) s k) := by
  unfold feat
  refine (shapeCast_abc_mc_apply _ shapeCasts_S128x128x256_S16384x256 r s k (row r s) rfl).trans ?_
  refine congrArg₂ (· + ·) ?_ ?_
  · refine (broadcastTo_a1c_abc_apply _ broadcasts_S128x1x256_S128x128x256 r s k).trans ?_
    refine (shapeCast_ab_a1b_apply _ shapeCasts_S128x256_S128x1x256 r 0 k).trans ?_
    exact shapeCast_1ab_ab_apply v0 shapeCasts_S1x128x256_S128x256 r k
  · refine (broadcastTo_1bc_abc_apply _ broadcasts_S1x128x256_S128x128x256 r s k).trans ?_
    refine (shapeCast_ab_1ab_apply _ shapeCasts_S128x256_S1x128x256 0 s k).trans ?_
    exact shapeCast_1ab_ab_apply v3 shapeCasts_S1x128x256_S128x256 s k

theorem layer0_apply (x : FVec Ideal S16384x256 .bf16) (v12 : Vec Ideal S256x128 .f32) (v15 : Vec Ideal S128 .f32)
    (p : Fin 16384) (o : Fin 128) :
    layer0 x v12 v15 (ix2 p o) = max (Cert.Spec.lin0 (fun k => x (ix2 p k)) v12 v15 o) Cert.Spec.zeroW :=
  congrArg (max · Cert.Spec.zeroW)
    (dense_apply 16384 256 128 dot_S16384x256_S256x128_S16384x128_1_0_0_1_n_n rfl x v12 v15 bitsLt_bf16_f32
      shapeCasts_S128_S1x128 broadcasts_S1x128_S16384x128 p o)

theorem layer1_apply (x : FVec Ideal S16384x128 .bf16) (v22 : Vec Ideal S128x64 .f32) (v25 : Vec Ideal S64 .f32)
    (p : Fin 16384) (o : Fin 64) :
    layer1 x v22 v25 (ix2 p o) = max (Cert.Spec.lin1 (fun k => x (ix2 p k)) v22 v25 o) Cert.Spec.zeroW :=
  congrArg (max · Cert.Spec.zeroW)
    (dense_apply 16384 128 64 dot_S16384x128_S128x64_S16384x64_1_0_0_1_n_n rfl x v22 v25 bitsLt_bf16_f32
      shapeCasts_S64_S1x64 broadcasts_S1x64_S16384x64 p o)

theorem layer2_apply (x : FVec Ideal S16384x64 .bf16) (v32 : Vec Ideal S64x32 .f32) (v35 : Vec Ideal S32 .f32)
    (p : Fin 16384) (o : Fin 32) :
    layer2 x v32 v35 (ix2 p o) = max (Cert.Spec.lin2 (fun k => x (ix2 p k)) v32 v35 o) Cert.Spec.zeroW :=
  congrArg (max · Cert.Spec.zeroW)
    (dense_apply 16384 64 32 dot_S16384x64_S64x32_S16384x32_1_0_0_1_n_n rfl x v32 v35 bitsLt_bf16_f32
      shapeCasts_S32_S1x32 broadcasts_S1x32_S16384x32 p o)

theorem logits_apply (x : FVec Ideal S16384x32 .bf16) (v42 : Vec Ideal S32x1 .f32) (v45 : Vec Ideal S1 .f32)
    (p : Fin 16384) :
    logits x v42 v45 (ix2 p (0 : Fin 1)) = Cert.Spec.lin3 (fun k => x (ix2 p k)) v42 v45 :=
  dense_apply 16384 32 1 dot_S16384x32_S32x1_S16384x1_1_0_0_1_n_n rfl x v42 v45 bitsLt_bf16_f32
    shapeCasts_S1_S1x1 broadcasts_S1x1_S16384x1 p 0

theorem asBlock_apply (y : FVec Ideal S16384x1 .f32) (r s : Fin 128) :
    asBlock y (ix3 (0 : Fin 1) r s) = y (ix2 (row r s) (0 : Fin 1)) := by
  unfold asBlock
  refine (shapeCast_ab_1ab_apply _ shapeCasts_S128x128_S1x128x128 0 r s).trans ?_
  exact shapeCast_m1_ab_apply y shapeCasts_S16384x1_S128x128 r s (row r s) rfl

/-! ## The stored value at (0, r, s) -/

/-- The body's stored value at (0, r, s) is the logit of row r of the first block and row s of the second. -/
theorem stored_apply (v0 v3 : Vec Ideal S1x128x256 .f32) (v12 : Vec Ideal S256x128 .f32) (v15 : Vec Ideal S128 .f32)
    (v22 : Vec Ideal S128x64 .f32) (v25 : Vec Ideal S64 .f32) (v32 : Vec Ideal S64x32 .f32) (v35 : Vec Ideal S32 .f32)
    (v42 : Vec Ideal S32x1 .f32) (v45 : Vec Ideal S1 .f32) (r s : Fin 128) :
    k0_pay1 (F := Ideal) (k0_pay2 v0 v3 v12 v15 v22 v25 v32) (k0_pay3 v35) v42 v45 (ix3 (0 : Fin 1) r s)
      = Cert.Spec.blockAt v0 v3 v12 v15 v22 v25 v32 v35 v42 v45 r s := by
  rw [stored_eq]
  refine (asBlock_apply _ r s).trans ?_
  refine (logits_apply _ v42 v45 (row r s)).trans ?_
  unfold Cert.Spec.blockAt Cert.Spec.mlp
  refine congrArg (fun x => Cert.Spec.lin3 x v42 v45) (funext fun k3 => ?_)
  refine (layer2_apply _ v32 v35 (row r s) k3).trans ?_
  refine congrArg (fun x => max (Cert.Spec.lin2 x v32 v35 k3) Cert.Spec.zeroW) (funext fun k2 => ?_)
  refine (layer1_apply _ v22 v25 (row r s) k2).trans ?_
  refine congrArg (fun x => max (Cert.Spec.lin1 x v22 v25 k2) Cert.Spec.zeroW) (funext fun k1 => ?_)
  refine (layer0_apply _ v12 v15 (row r s) k1).trans ?_
  refine congrArg (fun x => max (Cert.Spec.lin0 x v12 v15 k1) Cert.Spec.zeroW) (funext fun k => ?_)
  exact feat_apply v0 v3 r s k

end Cert.BlockLogit

end
-- ==== Proof.LogitsKI.lean ====
/-
  The kernel program's logits array as a function of the launch contents. The region is entered with the point array
  transposed, so entry (n, a, k) of what the two point windows read is entry (n, k, a) of the points as launched; the
  weights and biases enter as launched. Read through that, the array the write-backs leave — at (n, a, b) the cascade
  on the sums over k of the two rows a and b of batch entry n — is the specification's logit at the launch contents.
-/
import proofs.«151052_j16801912062758_1_alg».proof.Proof.FrameKI
import proofs.«151052_j16801912062758_1_alg».proof.Proof.BlocksToArray
import proofs.«151052_j16801912062758_1_alg».proof.Proof.BlockLogit

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The specification's logits array, from the points and the eight parameter arrays. -/
def logitsOf (x0 : (⟨S2x256x512, .f32⟩ : BufTy).Contents (Elt Ideal))
    (x4 : (⟨S256x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S64x32, .f32⟩ : BufTy).Contents (Elt Ideal)) (x9 : (⟨S32, .f32⟩ : BufTy).Contents (Elt Ideal))
    (x10 : (⟨S32x1, .f32⟩ : BufTy).Contents (Elt Ideal)) (x11 : (⟨S1, .f32⟩ : BufTy).Contents (Elt Ideal)) :
    (⟨S2x512x512, .f32⟩ : BufTy).Contents (Elt Ideal) :=
  fun i => Cert.Spec.predAt x0 x4 x5 x6 x7 x8 x9 x10 x11 (i 0) (i 1) (i 2)

/-- The transposed points at (n, a, k) are the points at (n, k, a). -/
theorem transposed_at (x : (⟨S2x256x512, .f32⟩ : BufTy).Contents (Elt Ideal)) (n : Fin 2) (a : Fin 512) (k : Fin 256) :
    transpose S2x512x256 [0, 2, 1] x transposes_S2x256x512_S2x512x256_0_2_1 (ix3 n a k) = x (ix3 n k a) :=
  transpose_apply [0, 2, 1] x transposes_S2x256x512_S2x512x256_0_2_1 (ix3 n a k) (ix3 n k a)
    (fun b => match b with | ⟨0, _⟩ => rfl | ⟨1, _⟩ => rfl | ⟨2, _⟩ => rfl)

variable (m : (ℓ : Loc nD τ sig) → Buf (Elt Ideal) ℓ) (ρ : Dev nD → PrngReg)

/-- What the write-backs leave in the logits array is the specification's logits of the launch contents. -/
theorem logits_eq (c : Dev nD) :
    (dat (F := Ideal) (V1 m ρ) c).arrAt 10 cfg0.N
      = logitsOf (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [final_logits (V1 m ρ) c Cert.BlockLogit.stored_apply, V1_v0,
    V1_keep m ρ c main_arg4 (by decide), V1_keep m ρ c main_arg5 (by decide), V1_keep m ρ c main_arg6 (by decide),
    V1_keep m ρ c main_arg7 (by decide), V1_keep m ρ c main_arg8 (by decide), V1_keep m ρ c main_arg9 (by decide),
    V1_keep m ρ c main_arg10 (by decide), V1_keep m ρ c main_arg11 (by decide)]
  funext idx
  unfold pairLogits logitsOf Cert.Spec.predAt
  congr 1
  funext k
  exact congrArg₂ (· + ·) (transposed_at (m ((c : Thread nD τ).loc main_arg0)) (idx 0) (idx 1) k)
    (transposed_at (m ((c : Thread nD τ).loc main_arg0)) (idx 0) (idx 2) k)

end Cert.KernelIdeal.Hand

end
-- ==== Proof.RefLogit.lean ====
/-
  The reference program's logit array is the specification's cascade, index by index.

  The reference transposes the point array to [batch, position, feature], broadcasts it along a second position
  axis in the two possible ways and adds the two: at (n, a, b, k) that is p (n, k, a) + p (n, k, b), the feature
  vector of the pair (a, b). Each dense layer is a contraction of the last axis against a weight matrix, followed
  by the addition of the bias broadcast along the last axis, and (the first three) by a maximum against the
  broadcast word of +0.0. So the array after layer l, read at (n, a, b, o), is the l-th stage of the cascade on
  that feature vector, term for term; the last layer has one output, and the final reshape drops that unit axis.
-/
import proofs.«151052_j16801912062758_1_alg».proof.Proof.SpecHeadEdge
import proofs.«151052_j16801912062758_1_alg».proof.Proof.Gen.ReferenceIdeal.Read

noncomputable section

open scoped BigOperators

namespace Cert.RefLogit

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

variable (x0 : (⟨S2x256x512, .f32⟩ : BufTy).Contents (Elt Ideal))
  (x4 : (⟨S256x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))
  (x8 : (⟨S64x32, .f32⟩ : BufTy).Contents (Elt Ideal)) (x9 : (⟨S32, .f32⟩ : BufTy).Contents (Elt Ideal))
  (x10 : (⟨S32x1, .f32⟩ : BufTy).Contents (Elt Ideal)) (x11 : (⟨S1, .f32⟩ : BufTy).Contents (Elt Ideal))

/-- The summed broadcasts at (n, a, b, k): the k-th feature of the pair (a, b) of batch entry n. -/
theorem feat_at (n : Fin 2) (a b : Fin 512) (k : Fin 256) :
    val_main_v5 (F := Ideal) x0 (ix4 n a b k) = x0 (ix3 n k a) + x0 (ix3 n k b) := by
  rw [val_main_v5_apply, val_main_v3_apply, val_main_v1_apply, val_main_v0_apply, val_main_v4_apply,
    val_main_v2_apply, val_main_v0_apply]
  have e1 : idx_main_v0 (idx_main_v1 (idx_main_v3 (ix4 n a b k))) = ix3 n k a :=
    funext fun d => match d with | ⟨0, _⟩ => rfl | ⟨1, _⟩ => rfl | ⟨2, _⟩ => rfl
  have e2 : idx_main_v0 (idx_main_v2 (idx_main_v4 (ix4 n a b k))) = ix3 n k b :=
    funext fun d => match d with | ⟨0, _⟩ => rfl | ⟨1, _⟩ => rfl | ⟨2, _⟩ => rfl
  rw [e1, e2]
  rfl

/-- The first layer after its max, at (n, a, b, o): the first stage of the cascade on the pair's feature vector. -/
theorem layer0_at (n : Fin 2) (a b : Fin 512) (o : Fin 128) :
    val_main_v10 (F := Ideal) x0 x4 x5 (ix4 n a b o)
      = max (lin0 (fun k => x0 (ix3 n k a) + x0 (ix3 n k b)) x4 x5 o) zeroW := by
  rw [val_main_v10_apply, val_main_v9_apply, val_main_v6_apply, val_main_v8_apply, val_main_v7_apply,
    val_main_call0_v0_apply, val_main_call0_cst_apply]
  have hs : ∀ k : Fin 256, val_main_v5 (F := Ideal) x0 (lidx_main_v6 (ix4 n a b o) k) * x4 (ridx_main_v6 (ix4 n a b o) k)
      = (fun k => x0 (ix3 n k a) + x0 (ix3 n k b)) k * x4 (ix2 k o) := fun k => by
    have el : lidx_main_v6 (ix4 n a b o) k = ix4 n a b k :=
      funext fun d => match d with | ⟨0, _⟩ => rfl | ⟨1, _⟩ => rfl | ⟨2, _⟩ => rfl | ⟨3, _⟩ => rfl
    have er : ridx_main_v6 (ix4 n a b o) k = ix2 k o :=
      funext fun d => match d with | ⟨0, _⟩ => rfl | ⟨1, _⟩ => rfl
    rw [el, er, feat_at]
  rw [Finset.sum_congr rfl fun k _ => hs k]
  have eb : idx_main_v7 (idx_main_v8 (ix4 n a b o)) = ix1 o :=
    funext fun d => match d with | ⟨0, _⟩ => rfl
  rw [eb]
  rfl

/-- The second layer after its max, at (n, a, b, o). -/
theorem layer1_at (n : Fin 2) (a b : Fin 512) (o : Fin 64) :
    val_main_v15 (F := Ideal) x0 x4 x5 x6 x7 (ix4 n a b o)
      = max (lin1 (fun k1 => max (lin0 (fun k => x0 (ix3 n k a) + x0 (ix3 n k b)) x4 x5 k1) zeroW) x6 x7 o) zeroW := by
  rw [val_main_v15_apply, val_main_v14_apply, val_main_v11_apply, val_main_v13_apply, val_main_v12_apply,
    val_main_call1_v0_apply, val_main_call1_cst_apply]
  have hs : ∀ k : Fin 128, val_main_v10 (F := Ideal) x0 x4 x5 (lidx_main_v11 (ix4 n a b o) k) * x6 (ridx_main_v11 (ix4 n a b o) k)
      = (fun k1 => max (lin0 (fun k => x0 (ix3 n k a) + x0 (ix3 n k b)) x4 x5 k1) zeroW) k * x6 (ix2 k o) := fun k => by
    have el : lidx_main_v11 (ix4 n a b o) k = ix4 n a b k :=
      funext fun d => match d with | ⟨0, _⟩ => rfl | ⟨1, _⟩ => rfl | ⟨2, _⟩ => rfl | ⟨3, _⟩ => rfl
    have er : ridx_main_v11 (ix4 n a b o) k = ix2 k o :=
      funext fun d => match d with | ⟨0, _⟩ => rfl | ⟨1, _⟩ => rfl
    rw [el, er, layer0_at]
  rw [Finset.sum_congr rfl fun k _ => hs k]
  have eb : idx_main_v12 (idx_main_v13 (ix4 n a b o)) = ix1 o :=
    funext fun d => match d with | ⟨0, _⟩ => rfl
  rw [eb]
  rfl

/-- The third layer after its max, at (n, a, b, o). -/
theorem layer2_at (n : Fin 2) (a b : Fin 512) (o : Fin 32) :
    val_main_v20 (F := Ideal) x0 x4 x5 x6 x7 x8 x9 (ix4 n a b o)
      = max (lin2 (fun k2 => max (lin1 (fun k1 => max (lin0 (fun k => x0 (ix3 n k a) + x0 (ix3 n k b)) x4 x5 k1) zeroW) x6 x7 k2) zeroW) x8 x9 o) zeroW := by
  rw [val_main_v20_apply, val_main_v19_apply, val_main_v16_apply, val_main_v18_apply, val_main_v17_apply,
    val_main_call2_v0_apply, val_main_call2_cst_apply]
  have hs : ∀ k : Fin 64, val_main_v15 (F := Ideal) x0 x4 x5 x6 x7 (lidx_main_v16 (ix4 n a b o) k) * x8 (ridx_main_v16 (ix4 n a b o) k)
      = (fun k2 => max (lin1 (fun k1 => max (lin0 (fun k => x0 (ix3 n k a) + x0 (ix3 n k b)) x4 x5 k1) zeroW) x6 x7 k2) zeroW) k * x8 (ix2 k o) := fun k => by
    have el : lidx_main_v16 (ix4 n a b o) k = ix4 n a b k :=
      funext fun d => match d with | ⟨0, _⟩ => rfl | ⟨1, _⟩ => rfl | ⟨2, _⟩ => rfl | ⟨3, _⟩ => rfl
    have er : ridx_main_v16 (ix4 n a b o) k = ix2 k o :=
      funext fun d => match d with | ⟨0, _⟩ => rfl | ⟨1, _⟩ => rfl
    rw [el, er, layer1_at]
  rw [Finset.sum_congr rfl fun k _ => hs k]
  have eb : idx_main_v17 (idx_main_v18 (ix4 n a b o)) = ix1 o :=
    funext fun d => match d with | ⟨0, _⟩ => rfl
  rw [eb]
  rfl

/-- The last layer (one output, no max) at (n, a, b, 0): the logit of the pair. -/
theorem layer3_at (n : Fin 2) (a b : Fin 512) :
    val_main_v24 (F := Ideal) x0 x4 x5 x6 x7 x8 x9 x10 x11 (ix4 n a b (0 : Fin 1))
      = predAt x0 x4 x5 x6 x7 x8 x9 x10 x11 n a b := by
  rw [val_main_v24_apply, val_main_v21_apply, val_main_v23_apply, val_main_v22_apply]
  have hs : ∀ k : Fin 32, val_main_v20 (F := Ideal) x0 x4 x5 x6 x7 x8 x9 (lidx_main_v21 (ix4 n a b (0 : Fin 1)) k) * x10 (ridx_main_v21 (ix4 n a b (0 : Fin 1)) k)
      = (fun k3 => max (lin2 (fun k2 => max (lin1 (fun k1 => max (lin0 (fun k => x0 (ix3 n k a) + x0 (ix3 n k b)) x4 x5 k1) zeroW) x6 x7 k2) zeroW) x8 x9 k3) zeroW) k * x10 (ix2 k (0 : Fin 1)) := fun k => by
    have el : lidx_main_v21 (ix4 n a b (0 : Fin 1)) k = ix4 n a b k :=
      funext fun d => match d with | ⟨0, _⟩ => rfl | ⟨1, _⟩ => rfl | ⟨2, _⟩ => rfl | ⟨3, _⟩ => rfl
    have er : ridx_main_v21 (ix4 n a b (0 : Fin 1)) k = ix2 k (0 : Fin 1) :=
      funext fun d => match d with | ⟨0, _⟩ => rfl | ⟨1, _⟩ => rfl
    rw [el, er, layer2_at]
  rw [Finset.sum_congr rfl fun k _ => hs k]
  have eb : idx_main_v22 (idx_main_v23 (ix4 n a b (0 : Fin 1))) = ix1 (0 : Fin 1) :=
    funext fun d => match d with | ⟨0, _⟩ => rfl
  rw [eb]
  rfl

/-- The reshape [2, 512, 512, 1] → [2, 512, 512] reads (n, a, b) at (n, a, b, 0): the row-major position
    (n · 512 + a) · 512 + b splits back into the same three coordinates. -/
theorem logit_at (n : Fin 2) (a b : Fin 512) :
    val_main_v25 (F := Ideal) x0 x4 x5 x6 x7 x8 x9 x10 x11 (ix3 n a b)
      = predAt x0 x4 x5 x6 x7 x8 x9 x10 x11 n a b := by
  rw [val_main_v25_apply]
  have e : idx_main_v25 (ix3 n a b) = ix4 n a b (0 : Fin 1) := funext fun d => Fin.ext (by
    have hn : n.val < 2 := n.isLt
    have ha : a.val < 512 := a.isLt
    have hb : b.val < 512 := b.isLt
    match d with
    | ⟨0, _⟩ => show ((n.val * 512 + a.val) * 512 + b.val) / 262144 = n.val; omega
    | ⟨1, _⟩ => show ((n.val * 512 + a.val) * 512 + b.val) / 512 % 512 = a.val; omega
    | ⟨2, _⟩ => show ((n.val * 512 + a.val) * 512 + b.val) / 1 % 512 = b.val; omega
    | ⟨3, _⟩ => rfl)
  rw [e, layer3_at]

/-- The reference's logit array is the specification, at every index. -/
theorem val_logit_eq :
    val_main_v25 (F := Ideal) x0 x4 x5 x6 x7 x8 x9 x10 x11
      = fun i => predAt x0 x4 x5 x6 x7 x8 x9 x10 x11 (i 0) (i 1) (i 2) := by
  funext i
  obtain ⟨n, a, b, rfl⟩ : ∃ (n : Fin 2) (a b : Fin 512), i = ix3 n a b := ⟨i 0, i 1, i 2, eq_ix3 i⟩
  exact logit_at x0 x4 x5 x6 x7 x8 x9 x10 x11 n a b

end Cert.RefLogit

end
-- ==== Proof.RefLoss.lean ====
/-
  The reference's last fourteen values are the loss of its logits.

  The reference ends with the same operations, in the same order and over the same words, as the kernel program
  applies after its region: from its logits p (its value number 25) and the arguments h, m, q it forms
  max (p, 0) − p · h + log1p (exp (− |p|)), multiplies by m and by q, sums over all entries and divides by the sum
  of q. So its final value is lossOf of its logits and those three arguments, by unfolding the fourteen values down
  to the logits, which stay closed.
-/
import proofs.«151052_j16801912062758_1_alg».proof.Proof.HostSidesKI
import proofs.«151052_j16801912062758_1_alg».proof.Proof.Gen.ReferenceIdeal.Read

noncomputable section

namespace Cert.RefLoss

open Idealize.ShloMosaic Idealize.SL.Sem
open Cert.ReferenceIdeal Cert.ReferenceIdeal.Read

variable {F : FTy → Type} [FloatOps F]

/-- The reference's final value is the loss of its logits against its arguments 1, 2 and 3. -/
theorem val_loss_eq (x0 : (⟨S2x256x512, .f32⟩ : BufTy).Contents (Elt F)) (x1 x2 x3 : (⟨S2x512x512, .f32⟩ : BufTy).Contents (Elt F))
    (x4 : (⟨S256x128, .f32⟩ : BufTy).Contents (Elt F)) (x5 : (⟨S128, .f32⟩ : BufTy).Contents (Elt F))
    (x6 : (⟨S128x64, .f32⟩ : BufTy).Contents (Elt F)) (x7 : (⟨S64, .f32⟩ : BufTy).Contents (Elt F))
    (x8 : (⟨S64x32, .f32⟩ : BufTy).Contents (Elt F)) (x9 : (⟨S32, .f32⟩ : BufTy).Contents (Elt F))
    (x10 : (⟨S32x1, .f32⟩ : BufTy).Contents (Elt F)) (x11 : (⟨S1, .f32⟩ : BufTy).Contents (Elt F)) :
    val_main_v39 (F := F) x0 x1 x2 x3 x4 x5 x6 x7 x8 x9 x10 x11
      = Cert.KernelIdeal.Hand.lossOf (val_main_v25 (F := F) x0 x4 x5 x6 x7 x8 x9 x10 x11) x1 x2 x3 := by
  unfold val_main_v39 val_main_v38 val_main_v37 val_main_v36 val_main_v35 val_main_v34 val_main_v33 val_main_v32
    val_main_v31 val_main_v30 val_main_v29 val_main_v28 val_main_v27 val_main_v26 val_main_cst val_main_cst_0
    val_main_cst_1 Cert.KernelIdeal.Hand.lossOf
  generalize val_main_v25 (F := F) x0 x4 x5 x6 x7 x8 x9 x10 x11 = p
  rfl

end Cert.RefLoss

end
-- ==== Proof.lean ====
/-
  The pairwise head against its reference. For a batch entry n and a pair of positions (a, b) both programs feed the
  feature vector k ↦ p (n, k, a) + p (n, k, b) through four dense layers 256 → 128 → 64 → 32 → 1 — each a sum of
  products followed by the bias, the first three followed by max (·, 0) — and both then reduce the logits, the targets
  and two masks to one number by the same seventeen operations. Over the extended reals the two logits arrays agree
  entry by entry with no appeal to finiteness: the kernel forms each 128 × 128 block of pairs from two blocks of the
  transposed points and multiplies the flattened 16384 × 256 matrix by the weights, the reference broadcasts and
  contracts the last axis, and the two are the same sums, term for term. The loss is one function of the logits
  array and three argument arrays on both sides.

  The kernel program reads its transposed point array through two windows of one pipeline; the frames of both
  printings of it are proved over a run in which that array's share is dealt between the two windows at the region's
  entry and joined at its exit. No rewrite separates the two printings: the preservation claim is trivial.
-/
import proofs.«151052_j16801912062758_1_alg».proof.Defs
import proofs.«151052_j16801912062758_1_alg».proof.Proof.Gen.Kernel
import proofs.«151052_j16801912062758_1_alg».proof.Proof.Gen.KernelIdeal
import proofs.«151052_j16801912062758_1_alg».proof.Proof.Gen.ReferenceIdeal
import proofs.«151052_j16801912062758_1_alg».proof.Proof.Gen.Pre_finite_inputs
import proofs.«151052_j16801912062758_1_alg».proof.Proof.Gen.ReferenceIdeal.Run
import proofs.«151052_j16801912062758_1_alg».proof.Proof.Gen.ReferenceIdeal.Read
import proofs.«151052_j16801912062758_1_alg».proof.Proof.FrameK
import proofs.«151052_j16801912062758_1_alg».proof.Proof.FrameKI
import proofs.«151052_j16801912062758_1_alg».proof.Proof.LogitsKI
import proofs.«151052_j16801912062758_1_alg».proof.Proof.RefLogit
import proofs.«151052_j16801912062758_1_alg».proof.Proof.RefLoss
import Idealize.ShloMosaic.Adequacy
import Idealize.ShloMosaic.Init

noncomputable section

namespace Cert.Proof

open Idealize.ShloMosaic Idealize.ShloMosaic.TcCoe Idealize.SL.Sem

/-- The word-level program runs, faults nowhere and leaves its arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two printings of the kernel program are one text. -/
theorem preserves : Cert.preserves_Kernel_KernelIdeal := trivial

/-- Both programs end with the specification's logits of the launch contents in the first result and the loss of
    those logits in the second. -/
theorem algebraic : Cert.algebraic_KernelIdeal_ReferenceIdeal := by
  intro m ρ m' ρ' _ hagree
  refine ⟨fun c => Cert.KernelIdeal.Hand.logitsOf (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Hand.lossOf (F := Ideal) (Cert.KernelIdeal.Hand.logitsOf (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_values (F := Ideal) m ρ)
    obtain ⟨h1, h15, hargs⟩ := h c
    exact ⟨h1.trans (Cert.KernelIdeal.Hand.logits_eq m ρ c),
      h15.trans (by rw [Cert.KernelIdeal.Hand.logits_eq m ρ c]), hargs⟩
  · refine (θ_run Cert.ReferenceIdeal.defs _ _).mono (fun r h c => ?_) (Cert.ReferenceIdeal.Value.run (F := Ideal) m' ρ')
    obtain ⟨h25, h39, hargs⟩ := h c
    obtain ⟨e0, e1, e2, e3, e4, e5, e6, e7, e8, e9, e10, e11⟩ := hagree c
    refine ⟨h25.trans ?_, h39.trans ?_, hargs⟩
    · rw [Cert.ReferenceIdeal.Read.val_main_v25_eq, Cert.RefLogit.val_logit_eq, e0, e4, e5, e6, e7, e8, e9, e10, e11]
      rfl
    · rw [Cert.ReferenceIdeal.Read.val_main_v39_eq, Cert.RefLoss.val_loss_eq, Cert.RefLogit.val_logit_eq,
        e0, e1, e2, e3, e4, e5, e6, e7, e8, e9, e10, e11]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
